-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S16777216x4 : Shape := ⟨2, ![16777216, 4]⟩
abbrev S512x512 : Shape := ⟨2, ![512, 512]⟩
abbrev S4x1 : Shape := ⟨2, ![4, 1]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16777216x4 : S_.BroadcastsInDim S16777216x4 (![] : Fin 0 → Fin S16777216x4.rank)
  reducesTo_S16777216x4_S_d0_1 : S16777216x4.ReducesTo [0, 1] S_
  bcast_S_S512x512 : S_.BroadcastsInDim S512x512 (![] : Fin 0 → Fin S512x512.rank)
  reducesTo_S512x512_S_d0_1 : S512x512.ReducesTo [0, 1] S_
  bcast_S_S4x1 : S_.BroadcastsInDim S4x1 (![] : Fin 0 → Fin S4x1.rank)
  reducesTo_S4x1_S_d0_1 : S4x1.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4x1 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S4x1 .f32 := Host.absf main_arg4
  let main_cst_6 : FVec F S_ .f32 := constant S_ .f32 0x7F800000#32
  let main_v20 : FVec F S4x1 .f32 := broadcastInDim S4x1 ![] bcast_S_S4x1 main_cst_6
  let main_v21 : IVec S4x1 1 := cmpf .olt main_v19 main_v20
  let main_c_7 : IVec S_ 1 := constantI S_ 1 1#1
  let main_v22 : IVec S_ 1 := (fun x v => Host.reduce IntOp.andi x v reducesTo_S4x1_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S16777216x4 .f32) (main_arg3 : FVec F S512x512 .f32) (main_arg4 : FVec F S4x1 .f32) (main_arg5 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16777216x4 .f32 := Host.absf main_arg2
  let main_cst_2 : FVec F S_ .f32 := constant S_ .f32 0x7F800000#32
  let main_v10 : FVec F S16777216x4 .f32 := broadcastInDim S16777216x4 ![] bcast_S_S16777216x4 main_cst_2
  let main_v11 : IVec S16777216x4 1 := cmpf .olt main_v9 main_v10
  let main_c_3 : IVec S_ 1 := constantI S_ 1 1#1
  let main_v12 : IVec S_ 1 := (fun x v => Host.reduce IntOp.andi x v reducesTo_S16777216x4_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S16777216x4 : Shape := ⟨2, ![16777216, 4]⟩
abbrev S512x512 : Shape := ⟨2, ![512, 512]⟩
abbrev S4x1 : Shape := ⟨2, ![4, 1]⟩
abbrev S512 : Shape := ⟨1, ![512]⟩
abbrev S4 : Shape := ⟨1, ![4]⟩
abbrev S2048x512 : Shape := ⟨2, ![2048, 512]⟩
abbrev S4096x16384 : Shape := ⟨2, ![4096, 16384]⟩
abbrev S2048 : Shape := ⟨1, ![2048]⟩
abbrev S_ : Shape := ⟨0, ![]⟩
abbrev S2048x1 : Shape := ⟨2, ![2048, 1]⟩
abbrev S1x512 : Shape := ⟨2, ![1, 512]⟩
abbrev S128x16384 : Shape := ⟨2, ![128, 16384]⟩
abbrev S128x512 : Shape := ⟨2, ![128, 512]⟩
abbrev S128x2048 : Shape := ⟨2, ![128, 2048]⟩

abbrev nBuf : Space → Nat
  | .hbm => 73
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S16777216x4, .f32⟩
  | .hbm, ⟨3, _⟩ => ⟨S512x512, .f32⟩
  | .hbm, ⟨4, _⟩ => ⟨S4x1, .f32⟩
  | .hbm, ⟨5, _⟩ => ⟨S512, .f32⟩
  | .hbm, ⟨6, _⟩ => ⟨S4, .f32⟩
  | .hbm, ⟨7, _⟩ => ⟨S4096x512, .bf16⟩
  | .hbm, ⟨8, _⟩ => ⟨S4096x16384, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S_, .i1⟩
  | .hbm, ⟨44, _⟩ => ⟨S2048, .i1⟩
  | .hbm, ⟨45, _⟩ => ⟨S2048, .i1⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048, .f32⟩
  | .hbm, ⟨59, _⟩ => ⟨S512, .i32⟩
  | .hbm, ⟨60, _⟩ => ⟨S2048x1, .i32⟩
  | .hbm, ⟨61, _⟩ => ⟨S1x512, .i32⟩
  | .hbm, ⟨62, _⟩ => ⟨S2048x512, .i32⟩
  | .hbm, ⟨63, _⟩ => ⟨S2048x512, .i32⟩
  | .hbm, ⟨64, _⟩ => ⟨S2048x512, .i1⟩
  | .hbm, ⟨65, _⟩ => ⟨S2048x1, .f32⟩
  | .hbm, ⟨66, _⟩ => ⟨S_, .f32⟩
  | .hbm, ⟨67, _⟩ => ⟨S_, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .bf16⟩
  | .hbm, ⟨72, _⟩ => ⟨S4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .bf16⟩
  | .local _ .vmem, ⟨4, _⟩ => ⟨S2048x512, .bf16⟩
  | .local _ .vmem, ⟨5, _⟩ => ⟨S128x16384, .f32⟩
  | .local _ .vmem, ⟨6, _⟩ => ⟨S128x16384, .f32⟩
  | .local _ .vmem, ⟨7, _⟩ => ⟨S2048x512, .bf16⟩
  | .local _ .vmem, ⟨8, _⟩ => ⟨S4096x512, .bf16⟩
  | .local _ .vmem, ⟨9, _⟩ => ⟨S512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x1_S4 : S4x1.ShapeCasts S4
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S2048x512_S2048x512_0_0 : (Rect.unit (s := S2048x512) ![0, 0] S2048x512.size inb_S2048x512_S2048x512_0_0).PackedRows (EltTy.packing .bf16)
  shapeCasts_S16777216x4_S4096x16384 : S16777216x4.ShapeCasts S4096x16384
  bcast_S_S2048 : S_.BroadcastsInDim S2048 (![] : Fin 0 → Fin S2048.rank)
  bcast_S2048_S2048x1_0 : S2048.BroadcastsInDim S2048x1 (![0] : Fin 1 → Fin S2048x1.rank)
  bcast_S512_S1x512_1 : S512.BroadcastsInDim S1x512 (![1] : Fin 1 → Fin S1x512.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x16384_S128x2048_0_0 : ∀ a, (![0, 0] : Fin 2 → Nat) a + S128x2048.size a ≤ S128x16384.size a
  h_S128x2048 : 0 < S128x2048.numel
  shapeCasts_S128x2048_S128x2048 : S128x2048.ShapeCasts S128x2048
  shapeCasts_S2048x512_S2048x512 : S2048x512.ShapeCasts S2048x512
  inb_S4096x512_S512x512_0_0 : ∀ a, (![0, 0] : Fin 2 → Nat) a + S512x512.size a ≤ S4096x512.size a
  shapeCasts_S512x512_S512x512 : S512x512.ShapeCasts S512x512
  inb_S128x16384_S128x2048_0_2048 : ∀ a, (![0, 2048] : Fin 2 → Nat) a + S128x2048.size a ≤ S128x16384.size a
  inb_S4096x512_S512x512_512_0 : ∀ a, (![512, 0] : Fin 2 → Nat) a + S512x512.size a ≤ S4096x512.size a
  inb_S128x16384_S128x2048_0_4096 : ∀ a, (![0, 4096] : Fin 2 → Nat) a + S128x2048.size a ≤ S128x16384.size a
  inb_S4096x512_S512x512_1024_0 : ∀ a, (![1024, 0] : Fin 2 → Nat) a + S512x512.size a ≤ S4096x512.size a
  inb_S128x16384_S128x2048_0_6144 : ∀ a, (![0, 6144] : Fin 2 → Nat) a + S128x2048.size a ≤ S128x16384.size a
  inb_S4096x512_S512x512_1536_0 : ∀ a, (![1536, 0] : Fin 2 → Nat) a + S512x512.size a ≤ S4096x512.size a
  inb_S128x16384_S128x2048_0_8192 : ∀ a, (![0, 8192] : Fin 2 → Nat) a + S128x2048.size a ≤ S128x16384.size a
  inb_S4096x512_S512x512_2048_0 : ∀ a, (![2048, 0] : Fin 2 → Nat) a + S512x512.size a ≤ S4096x512.size a
  inb_S128x16384_S128x2048_0_10240 : ∀ a, (![0, 10240] : Fin 2 → Nat) a + S128x2048.size a ≤ S128x16384.size a
  inb_S4096x512_S512x512_2560_0 : ∀ a, (![2560, 0] : Fin 2 → Nat) a + S512x512.size a ≤ S4096x512.size a
  inb_S128x16384_S128x2048_0_12288 : ∀ a, (![0, 12288] : Fin 2 → Nat) a + S128x2048.size a ≤ S128x16384.size a
  inb_S4096x512_S512x512_3072_0 : ∀ a, (![3072, 0] : Fin 2 → Nat) a + S512x512.size a ≤ S4096x512.size a
  inb_S128x16384_S128x2048_0_14336 : ∀ a, (![0, 14336] : Fin 2 → Nat) a + S128x2048.size a ≤ S128x16384.size a
  inb_S4096x512_S512x512_3584_0 : ∀ a, (![3584, 0] : Fin 2 → Nat) a + S512x512.size a ≤ S4096x512.size a
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  dot_S2048x512_S512x512_S2048x512_1_0_0_1_n_n_wf : DotDims.WF S2048x512 S512x512 S2048x512 [1] [0] [0] [1] [] []
  gather_S4_S2048x1_S2048_n_0_n_n_0_1_1_wf : GatherDims.WF S4 S2048x1 S2048 [] [0] [] [0] [] 1 ![1]
  dot_S128x2048_S2048x512_S128x512_1_0_0_1_n_n_wf : DotDims.WF S128x2048 S2048x512 S128x512 [1] [0] [0] [1] [] []
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x512.size a
  hwx0_2 : ∀ i : grid0.Coords, EltTy.bits .bf16 = 32 ∨ (Rect.block (s := S4096x512) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S4096x16384.size a
  hwx1_0 : ∀ i : grid1.Coords, EltTy.bits .f32 = 32 ∨ (Rect.block (s := S4096x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S4096x512.size a
  hwx1_4 : ∀ i : grid1.Coords, EltTy.bits .f32 = 32 ∨ (Rect.block (s := S4096x512) S128x512.size (cc1_transform_4 i) (hinb1_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S4_S2048x1_S2048_n_0_n_n_0_1_1 : GatherDims S4 S2048x1 S2048 where
  offsetDims := []
  collapsedSliceDims := [0]
  operandBatchingDims := []
  startIndicesBatchingDims := []
  startIndexMap := [0]
  indexVectorDim := 1
  sliceSizes := ![1]
  wf := gather_S4_S2048x1_S2048_n_0_n_n_0_1_1_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S16777216x4 : Shape := ⟨2, ![16777216, 4]⟩
abbrev S512x512 : Shape := ⟨2, ![512, 512]⟩
abbrev S4x1 : Shape := ⟨2, ![4, 1]⟩
abbrev S512 : Shape := ⟨1, ![512]⟩
abbrev S16777216x1 : Shape := ⟨2, ![16777216, 1]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S16777216x4, .f32⟩
  | .hbm, ⟨3, _⟩ => ⟨S512x512, .f32⟩
  | .hbm, ⟨4, _⟩ => ⟨S4x1, .f32⟩
  | .hbm, ⟨5, _⟩ => ⟨S512, .f32⟩
  | .hbm, ⟨6, _⟩ => ⟨S4096x512, .f32⟩
  | .hbm, ⟨7, _⟩ => ⟨S16777216x1, .f32⟩
  | .hbm, ⟨8, _⟩ => ⟨S4096x4096, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  shapeCasts_S16777216x1_S4096x4096 : S16777216x1.ShapeCasts S4096x4096
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x512_S512x512_S4096x512_1_0_0_1_n_n_wf : DotDims.WF S4096x512 S512x512 S4096x512 [1] [0] [0] [1] [] []
  dot_S16777216x4_S4x1_S16777216x1_1_0_0_1_n_n_wf : DotDims.WF S16777216x4 S4x1 S16777216x1 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S16777216x4_S4x1_S16777216x1_1_0_0_1_n_n : DotDims S16777216x4 S4x1 S16777216x1 where
  lhsContracting := [1]
  rhsContracting := [0]
  lhsNonContracting := [0]
  rhsNonContracting := [1]
  lhsBatch := []
  rhsBatch := []
  wf := dot_S16777216x4_S4x1_S16777216x1_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.KernelRun.lean ====
/-
  The idealized kernel program's run with its RESULT named.

  The program is a chain of host stretches and two kernel regions.  Every weakly fair execution terminates without a
  fault, and in the final memory every buffer that outlives the regions holds the last boundary's contents: the
  fold `W10` of the launch memory through the host operations and through what each region's write-backs leave.
  Read at the result buffer this gives the result array; read at the arguments it gives them back unchanged.
-/
import proofs.«144043_j30520037605944_2_alg».proof.Proof.Gen.KernelIdeal.Frame

set_option maxRecDepth 16384

noncomputable section

namespace Cert.EdgeConv.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the six argument arrays end as launched. -/
theorem run_result : θ_run defs (onTc (τ := τ) (main (F := F))) ⟨m, fun _ => 0, ρ⟩ (fun r => ∀ c : Dev nD,
      r.2.mem ((c.tc : Thread nD τ).loc main_v22) = W10 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v22 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.EdgeConv.Run

end
-- ==== Proof.Spec.lean ====
/-
  The function both programs compute, over the extended reals, index by index.

  Inputs: node features X [4096, 512], per-edge features E [4096·4096, 4], a feature weight W [512, 512],
  an edge projection q [4, 1] and a bias b [512].  With
    supp r o   = ∑ k, X[r, k] · W[k, o]                         (the projected features)
    edge r j   = ∑ f, E[r·4096 + j, f] · q[f, 0]                 (the dense edge weight of the pair (r, j))
  the result is
    out r o    = (∑ j, edge r j · supp j o) + b[o].
  Only sums and products of the inputs occur, in a fixed left/right order of every product, so the
  statement needs nothing about finiteness.
-/
import Idealize.ShloMosaic.PureOps.Ideal
import Idealize.ShloMosaic.Lib.ValueIdx

noncomputable section

namespace Cert.EdgeConv

open Idealize.ShloMosaic Idealize.ShloMosaic.ValueIdx

abbrev SX : Shape := ⟨2, ![4096, 512]⟩
abbrev SE : Shape := ⟨2, ![16777216, 4]⟩
abbrev SW : Shape := ⟨2, ![512, 512]⟩
abbrev SQ : Shape := ⟨2, ![4, 1]⟩
abbrev SB : Shape := ⟨1, ![512]⟩

/-- The row of `E` that holds the features of the ordered pair `(r, j)`: pairs are laid out row-major. -/
def pairIx (r j : Fin 4096) : Fin 16777216 := ⟨r.val * 4096 + j.val, by have := r.isLt; have := j.isLt; omega⟩

/-- Projected node features: row `r` of `X` against column `o` of `W`. -/
def supp (X : SX.Idx → EReal) (W : SW.Idx → EReal) (r : Fin 4096) (o : Fin 512) : EReal :=
  ∑ k : Fin 512, X (ix2 r k) * W (ix2 k o)

/-- The scalar weight of the pair `(r, j)`: its four features against the projection `q`. -/
def edge (E : SE.Idx → EReal) (q : SQ.Idx → EReal) (r j : Fin 4096) : EReal :=
  ∑ f : Fin 4, E (ix2 (pairIx r j) f) * q (ix2 f (0 : Fin 1))

/-- One entry of the result: the edge weights of row `r` against column `o` of the projected features, plus the bias. -/
def out (X : SX.Idx → EReal) (E : SE.Idx → EReal) (W : SW.Idx → EReal) (q : SQ.Idx → EReal) (b : SB.Idx → EReal)
    (r : Fin 4096) (o : Fin 512) : EReal :=
  (∑ j : Fin 4096, edge E q r j * supp X W j o) + b (ix1 o)

/-- The whole result array. -/
def result (X : SX.Idx → EReal) (E : SE.Idx → EReal) (W : SW.Idx → EReal) (q : SQ.Idx → EReal) (b : SB.Idx → EReal) :
    SX.Idx → EReal :=
  fun i => out X E W q b (i 0) (i 1)

/-- The projected features as an array. -/
def suppArr (X : SX.Idx → EReal) (W : SW.Idx → EReal) : SX.Idx → EReal := fun i => supp X W (i 0) (i 1)

end Cert.EdgeConv

end
-- ==== Proof.SupportValue.lean ====
/-
  The first kernel region, read as a value.

  The region runs a two-point grid.  Point `t` loads rows `2048·t … 2048·t + 2047` of the node features
  `X` [4096, 512] and the whole feature weight `W` [512, 512], forms the block product, and writes it to the same rows
  of the output array.  Over the extended reals the format changes are the identity and the product into a zero
  accumulator is the plain sum, so the entry `(p, o)` of a point's block is `∑ k, X[2048·t + p, k] · W[k, o]`: the block
  is the restriction of `suppArr X W` to the point's rows.  The two blocks tile the output array (row `r` lies in the
  block of point `r / 2048`), so after the region the output array holds `suppArr X W` — with `X`, `W` the contents of the
  two input arrays when the region is entered.
-/
import proofs.«144043_j30520037605944_2_alg».proof.Proof.Spec
import proofs.«144043_j30520037605944_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.EdgeConv.Support

open Cert.KernelIdeal Cert.KernelIdeal.Gen
open Idealize.ShloMosaic Idealize.ShloMosaic.TcCoe Idealize.ShloMosaic.ValueIdx
open Idealize.ShloMosaic.Pipeline (Dat Cfg Window)

/-- The contraction record of the kernel's one matrix product: rows of the left block against columns of the right. -/
abbrev DD := dot_S2048x512_S512x512_S2048x512_1_0_0_1_n_n

/-! ## Where the product reads its two operands -/

theorem lhs_row (i : S2048x512.Idx) (q : DD.contr.Idx) : (DD.lhsIdx i q 0).val = (i 0).val := by
  unfold DotDims.lhsIdx
  rw [dif_neg (show ¬(0 : Fin S2048x512.rank) ∈ DD.lhsBatch by decide), dif_pos (show (0 : Fin S2048x512.rank) ∈ DD.lhsNonContracting by decide)]
  rfl
theorem lhs_col (i : S2048x512.Idx) (q : DD.contr.Idx) : (DD.lhsIdx i q 1).val = (q ⟨0, by decide⟩).val :=
  DD.lhsIdx_val_of_single rfl i q
theorem rhs_row (i : S2048x512.Idx) (q : DD.contr.Idx) : (DD.rhsIdx i q 0).val = (q ⟨0, by decide⟩).val :=
  DD.rhsIdx_val_of_single rfl i q
theorem rhs_col (i : S2048x512.Idx) (q : DD.contr.Idx) : (DD.rhsIdx i q 1).val = (i 1).val := by
  unfold DotDims.rhsIdx
  rw [dif_neg (show ¬(1 : Fin S512x512.rank) ∈ DD.rhsBatch by decide), dif_pos (show (1 : Fin S512x512.rank) ∈ DD.rhsNonContracting by decide)]
  rfl

/-- The body's payload at an entry: the row of the left block against the column of the right block. -/
theorem pay_apply (x0 : Vec Ideal S2048x512 .f32) (x1 : Vec Ideal S512x512 .f32) (p : Fin 2048) (o : Fin 512) :
    k0_pay1 (F := Ideal) x0 x1 (ix2 p o) = ∑ k : Fin 512, x0 (ix2 p k) * x1 (ix2 k o) := by
  unfold k0_pay1
  simp only [truncf_apply, matmul]
  rw [Ideal.matmul_constant_zero_apply, ← Equiv.sum_comp (ValueIdx.contrEquiv1 DD 512 rfl rfl).symm]
  refine Finset.sum_congr rfl fun k _ => ?_
  have hk := ValueIdx.contrEquiv1_symm_val DD 512 rfl rfl k
  have el : DD.lhsIdx (ix2 p o) ((ValueIdx.contrEquiv1 DD 512 rfl rfl).symm k) = ix2 p k := funext fun a => Fin.ext (by
    match a with
    | ⟨0, _⟩ => exact lhs_row _ _
    | ⟨1, _⟩ => exact (lhs_col _ _).trans hk)
  have er : DD.rhsIdx (ix2 p o) ((ValueIdx.contrEquiv1 DD 512 rfl rfl).symm k) = ix2 k o := funext fun a => Fin.ext (by
    match a with
    | ⟨0, _⟩ => exact (rhs_row _ _).trans hk
    | ⟨1, _⟩ => exact rhs_col _ _)
  rw [el, er]
  rfl

/-- The payload at any entry of the block, its two coordinates read off. -/
theorem pay_at (x0 : Vec Ideal S2048x512 .f32) (x1 : Vec Ideal S512x512 .f32) (j : S2048x512.Idx) :
    k0_pay1 (F := Ideal) x0 x1 j = ∑ k : Fin 512, x0 (ix2 (j 0) k) * x1 (ix2 k (j 1)) :=
  (congrArg (k0_pay1 (F := Ideal) x0 x1) (eq_ix2 j)).trans (pay_apply x0 x1 (j 0) (j 1))

/-! ## From blocks to the array -/

theorem off_zero : (![0, 0] : Fin 2 → Nat) = fun _ => 0 := funext fun a => by fin_cases a <;> rfl

/-- The index maps, decided over the two grid points: the left operand's row block moves with the output's, every
    other block index is zero, and the output's row block index is the point's number. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

theorem flushed_eq (c : Dev nD) (t : Fin cfg0.N) :
    (dat0 (F := Ideal) V c).flushed 2 t
      = ((cfg0.win 2).blk t).view.read (Elt Ideal) (Cert.EdgeConv.suppArr (V c main_arg0) (V c main_arg3)) := by
  show (cfg0.win 2).cut (grid0.coords t) ((dat0 V c).after 2 t) = _
  rw [after0_2]
  unfold out0_2
  rw [View.canon_unit_zero off_zero]
  simp only [View.ld_unit_zero (S := S2048x512) off_zero, View.ld_unit_zero (S := S512x512) off_zero]
  obtain ⟨e0, e1, e2, e3, e4, e5⟩ := idx_facts t
  funext j
  refine (pay_at _ _ j).trans ?_
  show _ = Cert.EdgeConv.supp (V c main_arg0) (V c main_arg3) _ _
  unfold Cert.EdgeConv.supp
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have h1 : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [h0, h1]

/-- An index of the array is in point `t`'s output block iff each coordinate is in the block's range on its axis. -/
theorem mem_blk (t : Fin cfg0.N) (i : S4096x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v1).slice (win0_2.rect t)).set ↔ _
  rw [View.set_slice_whole, Rect.mem_set_unit]
  exact Iff.rfl

/-- Row `r` of the array is in the output block of point `r / 2048`, and every point writes its block back. -/
theorem cover (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, ht⟩ : ∃ t : Fin cfg0.N, t.val = (i 0).val / 2048 :=
    ⟨⟨(i 0).val / 2048, by rw [show cfg0.N = 2 from N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The output array of the first kernel region, after the region: the projected features of the two arrays
    the region reads, whatever the buffers held when it was entered. -/
theorem support_final (c : Dev nD) :
    (dat0 (F := Ideal) V c).arrAt 2 cfg0.N = Cert.EdgeConv.suppArr (V c main_arg0) (V c main_arg3) :=
  (dat0 (F := Ideal) V c).arrAt_eq_of_cover 2 (Cert.EdgeConv.suppArr (V c main_arg0) (V c main_arg3))
    (fun t _ => flushed_eq V c t) cover

/-- The same, with the two input arrays named as the region's windows name them. -/
theorem support_final_windows (c : Dev nD) :
    (dat0 (F := Ideal) V c).arrAt 2 cfg0.N
      = Cert.EdgeConv.suppArr (V c (Pipeline.arrRef spec0 0)) (V c (Pipeline.arrRef spec0 1)) :=
  support_final V c

end Cert.EdgeConv.Support

end
-- ==== Proof.FusedSpec.lean ====
/-
  What the second kernel computes from the arrays it is handed, as one function of them.

  Its operands: the edge features regrouped to rows of 16384 lanes (`e2`, [4096, 16384]: lane 4·j + f of row r is
  feature f of the pair (r, j)), the grouping matrix `g` [2048, 512], the projected features `s` [4096, 512] and the
  bias `b` [512].  Entry (r, o) of the result is the sum, chunk after chunk from a zero accumulator, of
      ∑ a < 512, (∑ l < 2048, e2[r, 2048·c + l] · g[l, a]) · s[512·c + a, o]        (c = 0 … 7)
  plus b[o].
-/
import Idealize.ShloMosaic.PureOps.Ideal
import Idealize.ShloMosaic.Lib.ValueIdx

noncomputable section

namespace Cert.EdgeConv

open Idealize.ShloMosaic Idealize.ShloMosaic.ValueIdx

abbrev SE2 : Shape := ⟨2, ![4096, 16384]⟩
abbrev SG : Shape := ⟨2, ![2048, 512]⟩

/-- Chunk `c`'s contribution to entry (r, o). -/
def chunkTerm (e2 : SE2.Idx → EReal) (g : SG.Idx → EReal) (s : (⟨2, ![4096, 512]⟩ : Shape).Idx → EReal) (c : Fin 8)
    (r : Fin 4096) (o : Fin 512) : EReal :=
  ∑ a : Fin 512,
    (∑ l : Fin 2048, e2 (ix2 r (⟨c.val * 2048 + l.val, by have := c.isLt; have := l.isLt; omega⟩ : Fin 16384)) * g (ix2 l a))
      * s (ix2 (⟨c.val * 512 + a.val, by have := c.isLt; have := a.isLt; omega⟩ : Fin 4096) o)

/-- Entry (r, o) of the second kernel's result. -/
def fused (e2 : SE2.Idx → EReal) (g : SG.Idx → EReal) (s : (⟨2, ![4096, 512]⟩ : Shape).Idx → EReal)
    (b : (⟨1, ![512]⟩ : Shape).Idx → EReal) (r : Fin 4096) (o : Fin 512) : EReal :=
  ((((((((0 + chunkTerm e2 g s 0 r o) + chunkTerm e2 g s 1 r o) + chunkTerm e2 g s 2 r o) + chunkTerm e2 g s 3 r o)
    + chunkTerm e2 g s 4 r o) + chunkTerm e2 g s 5 r o) + chunkTerm e2 g s 6 r o) + chunkTerm e2 g s 7 r o) + b (ix1 o)

/-- The second kernel's result array. -/
def fusedArr (e2 : SE2.Idx → EReal) (g : SG.Idx → EReal) (s : (⟨2, ![4096, 512]⟩ : Shape).Idx → EReal)
    (b : (⟨1, ![512]⟩ : Shape).Idx → EReal) : (⟨2, ![4096, 512]⟩ : Shape).Idx → EReal :=
  fun i => fused e2 g s b ⟨(i 0).val, (i 0).isLt⟩ ⟨(i 1).val, (i 1).isLt⟩

end Cert.EdgeConv

end
-- ==== Proof.ChunkStep.lean ====
/-
  The arithmetic of the second kernel's body, read index by index over the extended reals.

  The body keeps an accumulator block `acc` of shape [128, 512].  It starts at zero; for each of the eight column
  chunks it adds, at entry (p, o),
      ∑ a < 512, (∑ l < 2048, e[p, l] · g[l, a]) · s[a, o]
  where `e` is the chunk's 2048 lanes of the edge-feature rows, `g` the [2048, 512] grouping matrix and `s` the
  chunk's 512 rows of the projected features (two matrix products into zero accumulators; the changes of float format
  are the identity on extended reals); the last store adds the bias row.
-/
import proofs.«144043_j30520037605944_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.EdgeConv.Body

open Cert.KernelIdeal Cert.KernelIdeal.Gen
open Idealize.ShloMosaic Idealize.ShloMosaic.ValueIdx

/-- The row and the column of an entry of a [128, 512] block, as literal-size coordinates. -/
abbrev row (i : S128x512.Idx) : Fin 128 := ⟨(i 0).val, (i 0).isLt⟩
abbrev col (i : S128x512.Idx) : Fin 512 := ⟨(i 1).val, (i 1).isLt⟩

/-! ## The two matrix products at an index -/

local notation "D1" => dot_S128x2048_S2048x512_S128x512_1_0_0_1_n_n
local notation "D2" => dot_S128x512_S512x512_S128x512_1_0_0_1_n_n

theorem lhs1_0 (i : S128x512.Idx) (q : (dot_S128x2048_S2048x512_S128x512_1_0_0_1_n_n).contr.Idx) :
    ((dot_S128x2048_S2048x512_S128x512_1_0_0_1_n_n).lhsIdx i q 0).val = (i 0).val := by
  unfold DotDims.lhsIdx
  rw [dif_neg (show ¬(0 : Fin S128x2048.rank) ∈ (dot_S128x2048_S2048x512_S128x512_1_0_0_1_n_n).lhsBatch by decide), dif_pos (show (0 : Fin S128x2048.rank) ∈ (dot_S128x2048_S2048x512_S128x512_1_0_0_1_n_n).lhsNonContracting by decide)]
  rfl
theorem lhs1_1 (i : S128x512.Idx) (q : (dot_S128x2048_S2048x512_S128x512_1_0_0_1_n_n).contr.Idx) :
    ((dot_S128x2048_S2048x512_S128x512_1_0_0_1_n_n).lhsIdx i q 1).val = (q ⟨0, by decide⟩).val :=
  (dot_S128x2048_S2048x512_S128x512_1_0_0_1_n_n).lhsIdx_val_of_single rfl i q
theorem rhs1_0 (i : S128x512.Idx) (q : (dot_S128x2048_S2048x512_S128x512_1_0_0_1_n_n).contr.Idx) :
    ((dot_S128x2048_S2048x512_S128x512_1_0_0_1_n_n).rhsIdx i q 0).val = (q ⟨0, by decide⟩).val :=
  (dot_S128x2048_S2048x512_S128x512_1_0_0_1_n_n).rhsIdx_val_of_single rfl i q
theorem rhs1_1 (i : S128x512.Idx) (q : (dot_S128x2048_S2048x512_S128x512_1_0_0_1_n_n).contr.Idx) :
    ((dot_S128x2048_S2048x512_S128x512_1_0_0_1_n_n).rhsIdx i q 1).val = (i 1).val := by
  unfold DotDims.rhsIdx
  rw [dif_neg (show ¬(1 : Fin S2048x512.rank) ∈ (dot_S128x2048_S2048x512_S128x512_1_0_0_1_n_n).rhsBatch by decide), dif_pos (show (1 : Fin S2048x512.rank) ∈ (dot_S128x2048_S2048x512_S128x512_1_0_0_1_n_n).rhsNonContracting by decide)]
  rfl

/-- The lane product into a zero accumulator: entry (p, a) is the sum over the 2048 lanes. -/
theorem lanes_apply (x : FVec Ideal S128x2048 .bf16) (y : FVec Ideal S2048x512 .bf16) (i : S128x512.Idx) :
    FloatOps.matmul (dot_S128x2048_S2048x512_S128x512_1_0_0_1_n_n) none x y (constant S128x512 .f32 0x00000000#32) i
      = ∑ l : Fin 2048, x (ix2 (row i) l) * y (ix2 l (col i)) := by
  rw [Ideal.matmul_constant_zero_apply, ← Equiv.sum_comp (ValueIdx.contrEquiv1 (dot_S128x2048_S2048x512_S128x512_1_0_0_1_n_n) 2048 rfl rfl).symm]
  refine Finset.sum_congr rfl fun k _ => ?_
  have hk := ValueIdx.contrEquiv1_symm_val (dot_S128x2048_S2048x512_S128x512_1_0_0_1_n_n) 2048 rfl rfl k
  have el : (dot_S128x2048_S2048x512_S128x512_1_0_0_1_n_n).lhsIdx i ((ValueIdx.contrEquiv1 (dot_S128x2048_S2048x512_S128x512_1_0_0_1_n_n) 2048 rfl rfl).symm k) = ix2 (row i) k := funext fun a => Fin.ext (by
    match a with
    | ⟨0, _⟩ => exact lhs1_0 _ _
    | ⟨1, _⟩ => exact (lhs1_1 _ _).trans hk)
  have er : (dot_S128x2048_S2048x512_S128x512_1_0_0_1_n_n).rhsIdx i ((ValueIdx.contrEquiv1 (dot_S128x2048_S2048x512_S128x512_1_0_0_1_n_n) 2048 rfl rfl).symm k) = ix2 k (col i) := funext fun a => Fin.ext (by
    match a with
    | ⟨0, _⟩ => exact (rhs1_0 _ _).trans hk
    | ⟨1, _⟩ => exact rhs1_1 _ _)
  rw [el, er]

theorem lhs2_0 (i : S128x512.Idx) (q : (dot_S128x512_S512x512_S128x512_1_0_0_1_n_n).contr.Idx) :
    ((dot_S128x512_S512x512_S128x512_1_0_0_1_n_n).lhsIdx i q 0).val = (i 0).val := by
  unfold DotDims.lhsIdx
  rw [dif_neg (show ¬(0 : Fin S128x512.rank) ∈ (dot_S128x512_S512x512_S128x512_1_0_0_1_n_n).lhsBatch by decide), dif_pos (show (0 : Fin S128x512.rank) ∈ (dot_S128x512_S512x512_S128x512_1_0_0_1_n_n).lhsNonContracting by decide)]
  rfl
theorem lhs2_1 (i : S128x512.Idx) (q : (dot_S128x512_S512x512_S128x512_1_0_0_1_n_n).contr.Idx) :
    ((dot_S128x512_S512x512_S128x512_1_0_0_1_n_n).lhsIdx i q 1).val = (q ⟨0, by decide⟩).val :=
  (dot_S128x512_S512x512_S128x512_1_0_0_1_n_n).lhsIdx_val_of_single rfl i q
theorem rhs2_0 (i : S128x512.Idx) (q : (dot_S128x512_S512x512_S128x512_1_0_0_1_n_n).contr.Idx) :
    ((dot_S128x512_S512x512_S128x512_1_0_0_1_n_n).rhsIdx i q 0).val = (q ⟨0, by decide⟩).val :=
  (dot_S128x512_S512x512_S128x512_1_0_0_1_n_n).rhsIdx_val_of_single rfl i q
theorem rhs2_1 (i : S128x512.Idx) (q : (dot_S128x512_S512x512_S128x512_1_0_0_1_n_n).contr.Idx) :
    ((dot_S128x512_S512x512_S128x512_1_0_0_1_n_n).rhsIdx i q 1).val = (i 1).val := by
  unfold DotDims.rhsIdx
  rw [dif_neg (show ¬(1 : Fin S512x512.rank) ∈ (dot_S128x512_S512x512_S128x512_1_0_0_1_n_n).rhsBatch by decide), dif_pos (show (1 : Fin S512x512.rank) ∈ (dot_S128x512_S512x512_S128x512_1_0_0_1_n_n).rhsNonContracting by decide)]
  rfl

/-- The column product into a zero accumulator: entry (p, o) is the sum over the chunk's 512 columns. -/
theorem cols_apply (x : FVec Ideal S128x512 .bf16) (y : FVec Ideal S512x512 .bf16) (i : S128x512.Idx) :
    FloatOps.matmul (dot_S128x512_S512x512_S128x512_1_0_0_1_n_n) none x y (constant S128x512 .f32 0x00000000#32) i
      = ∑ a : Fin 512, x (ix2 (row i) a) * y (ix2 a (col i)) := by
  rw [Ideal.matmul_constant_zero_apply, ← Equiv.sum_comp (ValueIdx.contrEquiv1 (dot_S128x512_S512x512_S128x512_1_0_0_1_n_n) 512 rfl rfl).symm]
  refine Finset.sum_congr rfl fun k _ => ?_
  have hk := ValueIdx.contrEquiv1_symm_val (dot_S128x512_S512x512_S128x512_1_0_0_1_n_n) 512 rfl rfl k
  have el : (dot_S128x512_S512x512_S128x512_1_0_0_1_n_n).lhsIdx i ((ValueIdx.contrEquiv1 (dot_S128x512_S512x512_S128x512_1_0_0_1_n_n) 512 rfl rfl).symm k) = ix2 (row i) k := funext fun a => Fin.ext (by
    match a with
    | ⟨0, _⟩ => exact lhs2_0 _ _
    | ⟨1, _⟩ => exact (lhs2_1 _ _).trans hk)
  have er : (dot_S128x512_S512x512_S128x512_1_0_0_1_n_n).rhsIdx i ((ValueIdx.contrEquiv1 (dot_S128x512_S512x512_S128x512_1_0_0_1_n_n) 512 rfl rfl).symm k) = ix2 k (col i) := funext fun a => Fin.ext (by
    match a with
    | ⟨0, _⟩ => exact (rhs2_0 _ _).trans hk
    | ⟨1, _⟩ => exact rhs2_1 _ _)
  rw [el, er]

/-! ## One chunk's update of the accumulator -/

/-- What one chunk adds to the accumulator, entry by entry. -/
def step (e : Vec Ideal S128x2048 .f32) (g : Vec Ideal S2048x512 .bf16) (s : Vec Ideal S512x512 .bf16)
    (acc : Vec Ideal S128x512 .f32) : FVec Ideal S128x512 .f32 :=
  fun i => acc i + ∑ a : Fin 512, (∑ l : Fin 2048, e (ix2 (row i) l) * g (ix2 l a)) * s (ix2 a (col i))

/-- The chunk update as the body computes it: two products into zero accumulators, added to the accumulator. -/
theorem chunk_eq (e : FVec Ideal S128x2048 .f32) (g : FVec Ideal S2048x512 .bf16) (s : FVec Ideal S512x512 .bf16)
    (acc : FVec Ideal S128x512 .f32) :
    addf (F := Ideal) acc (matmul (F := Ideal) (dot_S128x512_S512x512_S128x512_1_0_0_1_n_n) none
      (truncf (F := Ideal) .bf16 (matmul (F := Ideal) (dot_S128x2048_S2048x512_S128x512_1_0_0_1_n_n) none (truncf (F := Ideal) .bf16 e bitsLt_bf16_f32) g
        (constant (F := Ideal) S128x512 .f32 0x00000000#32)) bitsLt_bf16_f32) s (constant (F := Ideal) S128x512 .f32 0x00000000#32))
      = step e g s acc := by
  funext i
  unfold step
  rw [addf_apply]
  refine congrArg (acc i + ·) ?_
  simp only [matmul]
  rw [cols_apply]
  refine Finset.sum_congr rfl fun a _ => ?_
  rw [truncf_apply, lanes_apply]
  rfl

theorem pay3_eq (e : Vec Ideal S128x2048 .f32) (g : Vec Ideal S2048x512 .bf16) (s : Vec Ideal S512x512 .bf16)
    (acc : Vec Ideal S128x512 .f32) : k1_pay3 (F := Ideal) e g s acc = step e g s acc := by
  unfold k1_pay3; simp only [shapeCast_self]; exact chunk_eq e g s acc
theorem pay4_eq (e : Vec Ideal S128x2048 .f32) (g : Vec Ideal S2048x512 .bf16) (s : Vec Ideal S512x512 .bf16)
    (acc : Vec Ideal S128x512 .f32) : k1_pay4 (F := Ideal) e g s acc = step e g s acc := by
  unfold k1_pay4; simp only [shapeCast_self]; exact chunk_eq e g s acc
theorem pay6_eq (e : Vec Ideal S128x2048 .f32) (g : Vec Ideal S2048x512 .bf16) (s : Vec Ideal S512x512 .bf16)
    (acc : Vec Ideal S128x512 .f32) : k1_pay6 (F := Ideal) e g s acc = step e g s acc := by
  unfold k1_pay6; simp only [shapeCast_self]; exact chunk_eq e g s acc
theorem pay7_eq (e : Vec Ideal S128x2048 .f32) (g : Vec Ideal S2048x512 .bf16) (s : Vec Ideal S512x512 .bf16)
    (acc : Vec Ideal S128x512 .f32) : k1_pay7 (F := Ideal) e g s acc = step e g s acc := by
  unfold k1_pay7; simp only [shapeCast_self]; exact chunk_eq e g s acc
theorem pay8_eq (e : Vec Ideal S128x2048 .f32) (g : Vec Ideal S2048x512 .bf16) (s : Vec Ideal S512x512 .bf16)
    (acc : Vec Ideal S128x512 .f32) : k1_pay8 (F := Ideal) e g s acc = step e g s acc := by
  unfold k1_pay8; simp only [shapeCast_self]; exact chunk_eq e g s acc
theorem pay9_eq (e : Vec Ideal S128x2048 .f32) (g : Vec Ideal S2048x512 .bf16) (s : Vec Ideal S512x512 .bf16)
    (acc : Vec Ideal S128x512 .f32) : k1_pay9 (F := Ideal) e g s acc = step e g s acc := by
  unfold k1_pay9; simp only [shapeCast_self]; exact chunk_eq e g s acc
theorem pay10_eq (e : Vec Ideal S128x2048 .f32) (g : Vec Ideal S2048x512 .bf16) (s : Vec Ideal S512x512 .bf16)
    (acc : Vec Ideal S128x512 .f32) : k1_pay10 (F := Ideal) e g s acc = step e g s acc := by
  unfold k1_pay10; simp only [shapeCast_self]; exact chunk_eq e g s acc
theorem pay11_eq (e : Vec Ideal S128x2048 .f32) (g : Vec Ideal S2048x512 .bf16) (s : Vec Ideal S512x512 .bf16)
    (acc : Vec Ideal S128x512 .f32) : k1_pay11 (F := Ideal) e g s acc = step e g s acc := by
  unfold k1_pay11; simp only [shapeCast_self]; exact chunk_eq e g s acc

/-- The accumulator's reset: the zero block. -/
theorem pay2_eq : (k1_pay2 (F := Ideal) : FVec Ideal S128x512 .f32) = fun _ => (0 : EReal) := by
  unfold k1_pay2; simp only [shapeCast_self]
  funext i
  show Ideal.ofBits .f32 0x00000000#32 = 0
  exact Ideal.ofBits_zero_f32

/-- A re-store of the accumulator changes nothing. -/
theorem pay5_eq (v : FVec Ideal S128x512 .f32) : k1_pay5 (F := Ideal) v = v := by
  unfold k1_pay5; simp only [shapeCast_self]

/-- The last store: accumulator plus the bias block. -/
theorem pay1_eq (a : Vec Ideal S128x512 .f32) (b : FVec Ideal S128x512 .f32) (i : S128x512.Idx) : k1_pay1 (F := Ideal) a b i = a i + b i := rfl

/-- The bias row spread over the block's rows. -/
theorem pay12_eq (b : Vec Ideal S512 .f32) (i : S128x512.Idx) : k1_pay12 (F := Ideal) b i = b (ix1 (col i)) := by
  unfold k1_pay12
  refine (broadcastTo_apply _ broadcasts_S1x512_S128x512 i (ix2 (0 : Fin 1) (col i)) (fun a => ?_)).trans ?_
  · match a with
    | ⟨0, _⟩ => show 0 = if (1 : Nat) = 1 then 0 else _; rw [if_pos rfl]
    | ⟨1, _⟩ => show (i 1).val = if (512 : Nat) = 1 then 0 else (i 1).val; rw [if_neg (by decide)]
  · exact shapeCast_apply b shapeCasts_S512_S1x512 _ (ix1 (col i))
      (by rewrite [Shape.rowMajor_val_one, Shape.rowMajor_val_two]; show (i 1).val = 0 * 512 + (i 1).val; omega)

/-! ## The whole body as one function of its four input blocks -/

/-- Chunk `c`'s 2048 lanes of the 16384-lane edge-feature rows. -/
def lanes (x0 : Vec Ideal S128x16384 .f32) (c : Fin 8) : Vec Ideal S128x2048 .f32 :=
  fun y => x0 (ix2 (⟨(y 0).val, (y 0).isLt⟩ : Fin 128) (⟨c.val * 2048 + (y 1).val, by have h1 : (y 1).val < 2048 := (y 1).isLt; have h2 := c.isLt; omega⟩ : Fin 16384))

/-- Chunk `c`'s 512 rows of the projected features. -/
def rows (x2 : Vec Ideal S4096x512 .bf16) (c : Fin 8) : Vec Ideal S512x512 .bf16 :=
  fun y => x2 (ix2 (⟨c.val * 512 + (y 0).val, by have h1 : (y 0).val < 512 := (y 0).isLt; have h2 := c.isLt; omega⟩ : Fin 4096) (⟨(y 1).val, (y 1).isLt⟩ : Fin 512))

/-- The block the body leaves: the eight chunk updates of a zero accumulator, in order, then the bias row. -/
def blockOf (x0 : Vec Ideal S128x16384 .f32) (x1 : Vec Ideal S2048x512 .bf16) (x2 : Vec Ideal S4096x512 .bf16)
    (x3 : Vec Ideal S512 .f32) : Vec Ideal S128x512 .f32 :=
  fun i =>
    step (lanes x0 7) x1 (rows x2 7) (step (lanes x0 6) x1 (rows x2 6) (step (lanes x0 5) x1 (rows x2 5)
      (step (lanes x0 4) x1 (rows x2 4) (step (lanes x0 3) x1 (rows x2 3) (step (lanes x0 2) x1 (rows x2 2)
        (step (lanes x0 1) x1 (rows x2 1) (step (lanes x0 0) x1 (rows x2 0) (fun _ => (0 : EReal))))))))) i
      + x3 (ix1 (col i))

end Cert.EdgeConv.Body

end
-- ==== Proof.FusedBody.lean ====
/-
  The second kernel's body, run on whole staging buffers holding the four input blocks, leaves in the output's
  buffer the block `blockOf` of them: the accumulator (a scratch buffer of the kernel's own) is zeroed, updated by
  the eight chunks in order — each update read back from the scratch buffer, where the last store through the whole
  buffer is what a load through the whole buffer sees — and stored with the bias row added.
-/
import proofs.«144043_j30520037605944_2_alg».proof.Proof.Gen.KernelIdeal.Frame
import proofs.«144043_j30520037605944_2_alg».proof.Proof.ChunkStep
import Idealize.ShloMosaic.Lib.Pipeline.Value
import Idealize.ShloMosaic.Lib.Tactic

set_option maxRecDepth 16384

noncomputable section

namespace Cert.EdgeConv.Body

open Cert.KernelIdeal Cert.KernelIdeal.Gen
open Idealize.ShloMosaic Idealize.ShloMosaic.TcCoe Idealize.ShloMosaic.Tactic Idealize.ShloMosaic.ValueIdx Idealize.SL.Sem

theorem off2 : (![0, 0] : Fin 2 → Nat) = fun _ => 0 := funext fun a => by fin_cases a <;> rfl
theorem off1 : (![0] : Fin 1 → Nat) = fun _ => 0 := funext fun a => by fin_cases a; rfl

/-- A load of 2048 lanes from lane `2048·k` of the edge-feature block is chunk `k`'s lanes. -/
theorem ld_lanes (x0 : Vec Ideal S128x16384 .f32) (k : Fin 8) (off : Fin 2 → Nat)
    (inb : ∀ a, off a + S128x2048.size a ≤ S128x16384.size a) (h0 : off 0 = 0) (h1 : off 1 = k.val * 2048) :
    View.ld x0 (Rect.unit (s := S128x16384) off S128x2048.size inb) = lanes x0 k := by
  funext y
  unfold lanes
  refine congrArg x0 (funext fun a => Fin.ext ?_)
  match a with
  | ⟨0, _⟩ => show off 0 + 1 * (y 0).val = (y 0).val; omega
  | ⟨1, _⟩ => show off 1 + 1 * (y 1).val = k.val * 2048 + (y 1).val; omega

/-- A load of 512 rows from row `512·k` of the projected features is chunk `k`'s rows. -/
theorem ld_rows (x2 : Vec Ideal S4096x512 .bf16) (k : Fin 8) (off : Fin 2 → Nat)
    (inb : ∀ a, off a + S512x512.size a ≤ S4096x512.size a) (h0 : off 0 = k.val * 512) (h1 : off 1 = 0) :
    View.ld x2 (Rect.unit (s := S4096x512) off S512x512.size inb) = rows x2 k := by
  funext y
  unfold rows
  refine congrArg x2 (funext fun a => Fin.ext ?_)
  match a with
  | ⟨0, _⟩ => show off 0 + 1 * (y 0).val = k.val * 512 + (y 0).val; omega
  | ⟨1, _⟩ => show off 1 + 1 * (y 1).val = (y 1).val; omega

section Chain

variable (c : Dev nD) (arg1 : Memref sig .tc .vmem S128x16384 .f32) (harg1 : arg1.IsWhole)
  (arg2 : Memref sig .tc .vmem S2048x512 .bf16) (harg2 : arg2.IsWhole)
  (arg3 : Memref sig .tc .vmem S4096x512 .bf16) (harg3 : arg3.IsWhole)
  (arg4 : Memref sig .tc .vmem S512 .f32) (harg4 : arg4.IsWhole)
  (arg6 : Memref sig .tc .vmem S128x512 .f32)
  (x0 : Vec Ideal S128x16384 .f32) (x1 : Vec Ideal S2048x512 .bf16) (x2 : Vec Ideal S4096x512 .bf16) (x3 : Vec Ideal S512 .f32)

/-- The accumulator after the first `n` chunks. -/
def accAfter : Nat → Vec Ideal S128x512 .f32
  | 0 => fun _ => (0 : EReal)
  | n + 1 => step (lanes x0 ⟨n % 8, Nat.mod_lt _ (by decide)⟩) x1 (rows x2 ⟨n % 8, Nat.mod_lt _ (by decide)⟩) (accAfter n)

/-- A load of lanes of the edge-feature buffer, which holds `x0`. -/
theorem rd_lanes (k : Fin 8) (off : Fin 2 → Nat) (inb : ∀ a, off a + S128x2048.size a ≤ S128x16384.size a)
    (h0 : off 0 = 0) (h1 : off 1 = k.val * 2048) :
    View.readAt (Elt Ideal) arg1.view (Rect.unit (s := S128x16384) off S128x2048.size inb).toLoadRect (harg1.unread x0) = lanes x0 k := by
  rw [View.readAt_eq_ld, harg1.read_unread]; exact ld_lanes x0 k off inb h0 h1
/-- A load of the whole grouping-matrix buffer, which holds `x1`. -/
theorem rd_group :
    View.readAt (Elt Ideal) arg2.view (Rect.unit (s := S2048x512) ![0, 0] S2048x512.size inb_S2048x512_S2048x512_0_0).toLoadRect (harg2.unread x1) = x1 := by
  rw [View.readAt_eq_ld, harg2.read_unread, View.ld_unit_zero (S := S2048x512) off2]
/-- A load of rows of the projected-features buffer, which holds `x2`. -/
theorem rd_rows (k : Fin 8) (off : Fin 2 → Nat) (inb : ∀ a, off a + S512x512.size a ≤ S4096x512.size a)
    (h0 : off 0 = k.val * 512) (h1 : off 1 = 0) :
    View.readAt (Elt Ideal) arg3.view (Rect.unit (s := S4096x512) off S512x512.size inb).toLoadRect (harg3.unread x2) = rows x2 k := by
  rw [View.readAt_eq_ld, harg3.read_unread]; exact ld_rows x2 k off inb h0 h1

theorem v13_eq : kernelRun1_A.sl.v13 (F := Ideal) c arg6 = accAfter x0 x1 x2 0 := by
  unfold kernelRun1_A.sl.v13 kernelRun1_A.sl.HS0_1
  exact (View.readCov_cons_toLoadRect _ _ _ _).trans pay2_eq

theorem v28_eq : kernelRun1_A.sl.v28 (F := Ideal) c arg1 harg1 arg2 harg2 arg3 harg3 arg6 x0 x1 x2 = accAfter x0 x1 x2 1 := by
  unfold kernelRun1_A.sl.v28 kernelRun1_A.sl.HS0_2
  refine (View.readCov_cons_toLoadRect _ _ _ _).trans ?_
  rw [v13_eq c arg6 x0 x1 x2, pay3_eq, rd_lanes arg1 harg1 x0 0 _ _ rfl rfl, rd_group arg2 harg2 x1, rd_rows arg3 harg3 x2 0 _ _ rfl rfl]
  rfl

theorem r_eq : kernelRun1_A.sl.r (F := Ideal) c arg1 harg1 arg2 harg2 arg3 harg3 arg6 x0 x1 x2 = accAfter x0 x1 x2 2 := by
  unfold kernelRun1_A.sl.r
  rw [v28_eq c arg1 harg1 arg2 harg2 arg3 harg3 arg6 x0 x1 x2, pay4_eq, rd_lanes arg1 harg1 x0 1 _ _ rfl rfl, rd_group arg2 harg2 x1, rd_rows arg3 harg3 x2 1 _ _ rfl rfl]
  rfl

theorem v43_eq : kernelRun1_A.sl.v43 (F := Ideal) c arg1 harg1 arg2 harg2 arg3 harg3 arg6 x0 x1 x2 = accAfter x0 x1 x2 2 := by
  unfold kernelRun1_A.sl.v43 kernelRun1_A.sl.HS0_3
  refine (View.readCov_cons_toLoadRect _ _ _ _).trans ?_
  rw [pay5_eq]; exact r_eq c arg1 harg1 arg2 harg2 arg3 harg3 arg6 x0 x1 x2

theorem v58_eq : kernelRun1_A.sl.v58 (F := Ideal) c arg1 harg1 arg2 harg2 arg3 harg3 arg6 x0 x1 x2 = accAfter x0 x1 x2 3 := by
  unfold kernelRun1_A.sl.v58 kernelRun1_A.sl.HS0_4
  refine (View.readCov_cons_toLoadRect _ _ _ _).trans ?_
  rw [v43_eq c arg1 harg1 arg2 harg2 arg3 harg3 arg6 x0 x1 x2, pay6_eq, rd_lanes arg1 harg1 x0 2 _ _ rfl rfl, rd_group arg2 harg2 x1, rd_rows arg3 harg3 x2 2 _ _ rfl rfl]
  rfl

theorem r_1_eq : kernelRun1_A.sl.r_1 (F := Ideal) c arg1 harg1 arg2 harg2 arg3 harg3 arg6 x0 x1 x2 = accAfter x0 x1 x2 4 := by
  unfold kernelRun1_A.sl.r_1
  rw [v58_eq c arg1 harg1 arg2 harg2 arg3 harg3 arg6 x0 x1 x2, pay7_eq, rd_lanes arg1 harg1 x0 3 _ _ rfl rfl, rd_group arg2 harg2 x1, rd_rows arg3 harg3 x2 3 _ _ rfl rfl]
  rfl

theorem v73_eq : kernelRun1_A.sl.v73 (F := Ideal) c arg1 harg1 arg2 harg2 arg3 harg3 arg6 x0 x1 x2 = accAfter x0 x1 x2 4 := by
  unfold kernelRun1_A.sl.v73 kernelRun1_A.sl.HS0_5
  exact (View.readCov_cons_toLoadRect _ _ _ _).trans (r_1_eq c arg1 harg1 arg2 harg2 arg3 harg3 arg6 x0 x1 x2)

theorem v88_eq : kernelRun1_A.sl.v88 (F := Ideal) c arg1 harg1 arg2 harg2 arg3 harg3 arg6 x0 x1 x2 = accAfter x0 x1 x2 5 := by
  unfold kernelRun1_A.sl.v88 kernelRun1_A.sl.HS0_6
  refine (View.readCov_cons_toLoadRect _ _ _ _).trans ?_
  rw [v73_eq c arg1 harg1 arg2 harg2 arg3 harg3 arg6 x0 x1 x2, pay8_eq, rd_lanes arg1 harg1 x0 4 _ _ rfl rfl, rd_group arg2 harg2 x1, rd_rows arg3 harg3 x2 4 _ _ rfl rfl]
  rfl

theorem v103_eq : kernelRun1_A.sl.v103 (F := Ideal) c arg1 harg1 arg2 harg2 arg3 harg3 arg6 x0 x1 x2 = accAfter x0 x1 x2 6 := by
  unfold kernelRun1_A.sl.v103 kernelRun1_A.sl.HS0_7
  refine (View.readCov_cons_toLoadRect _ _ _ _).trans ?_
  rw [v88_eq c arg1 harg1 arg2 harg2 arg3 harg3 arg6 x0 x1 x2, pay9_eq, rd_lanes arg1 harg1 x0 5 _ _ rfl rfl, rd_group arg2 harg2 x1, rd_rows arg3 harg3 x2 5 _ _ rfl rfl]
  rfl

theorem r_2_eq : kernelRun1_A.sl.r_2 (F := Ideal) c arg1 harg1 x0 = lanes x0 6 := by
  unfold kernelRun1_A.sl.r_2
  exact rd_lanes arg1 harg1 x0 6 _ _ rfl rfl

theorem v118_eq : kernelRun1_A.sl.v118 (F := Ideal) c arg1 harg1 arg2 harg2 arg3 harg3 arg6 x0 x1 x2 = accAfter x0 x1 x2 7 := by
  unfold kernelRun1_A.sl.v118 kernelRun1_A.sl.HS0_8
  refine (View.readCov_cons_toLoadRect _ _ _ _).trans ?_
  rw [v103_eq c arg1 harg1 arg2 harg2 arg3 harg3 arg6 x0 x1 x2, r_2_eq c arg1 harg1 x0, pay10_eq, rd_group arg2 harg2 x1, rd_rows arg3 harg3 x2 6 _ _ rfl rfl]
  rfl

theorem v124_eq : kernelRun1_A.sl.v124 (F := Ideal) c arg1 harg1 arg2 harg2 arg3 harg3 arg6 x0 x1 x2 = accAfter x0 x1 x2 8 := by
  unfold kernelRun1_A.sl.v124 kernelRun1_A.sl.HS0_9
  refine (View.readCov_cons_toLoadRect _ _ _ _).trans ?_
  rw [v118_eq c arg1 harg1 arg2 harg2 arg3 harg3 arg6 x0 x1 x2, pay11_eq, rd_lanes arg1 harg1 x0 7 _ _ rfl rfl, rd_group arg2 harg2 x1, rd_rows arg3 harg3 x2 7 _ _ rfl rfl]
  rfl

theorem r_3_eq (i : S128x512.Idx) : kernelRun1_A.sl.r_3 (F := Ideal) c arg4 harg4 x3 i = x3 (ix1 (col i)) := by
  unfold kernelRun1_A.sl.r_3
  rw [View.readAt_eq_ld, harg4.read_unread, View.ld_unit_zero (S := S512) off1, pay12_eq]

/-- The eight updates spelled out are the block function. -/
theorem accAfter_eight (i : S128x512.Idx) : accAfter x0 x1 x2 8 i + x3 (ix1 (col i)) = blockOf x0 x1 x2 x3 i := rfl

end Chain

/-- THE BODY'S VALUE: on whole staging buffers holding the input blocks `x0 … x3` the body leaves `blockOf` of them
    in the output's buffer. -/
theorem body_block (c : Dev nD) (i : grid1.Coords) (arg1 : Memref sig .tc .vmem S128x16384 .f32) (harg1 : arg1.IsWhole)
    (arg2 : Memref sig .tc .vmem S2048x512 .bf16) (harg2 : arg2.IsWhole) (arg3 : Memref sig .tc .vmem S4096x512 .bf16) (harg3 : arg3.IsWhole)
    (arg4 : Memref sig .tc .vmem S512 .f32) (harg4 : arg4.IsWhole) (arg5 : Memref sig .tc .vmem S128x512 .f32) (harg5 : arg5.IsWhole)
    (arg6 : Memref sig .tc .vmem S128x512 .f32) (harg6 : arg6.IsWhole)
    (x0 : Vec Ideal S128x16384 .f32) (x1 : Vec Ideal S2048x512 .bf16) (x2 : Vec Ideal S4096x512 .bf16) (x3 : Vec Ideal S512 .f32) :
    out1_A_4 (F := Ideal) c i arg1 harg1 arg2 harg2 arg3 harg3 arg4 harg4 arg5 harg5 arg6 harg6 x0 x1 x2 x3 = blockOf x0 x1 x2 x3 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  rw [View.canon_unit_zero off2]
  funext j
  rw [pay1_eq, v124_eq c arg1 harg1 arg2 harg2 arg3 harg3 arg6 x0 x1 x2, r_3_eq c arg4 harg4 x3 j]
  exact accAfter_eight x0 x1 x2 x3 j

end Cert.EdgeConv.Body

end
-- ==== Proof.FusedValue.lean ====
/-
  The second kernel region, read as a value.

  The region runs a thirty-two-point grid.  Point `t` loads rows `128·t … 128·t + 127` of the regrouped edge features
  [4096, 16384], and the whole of the grouping matrix [2048, 512], of the projected features [4096, 512] and of the bias
  [512]; its body leaves in the output block the eight chunk updates of a zero accumulator followed by the bias row
  (`blockOf`), and the block is written to the same rows of the output array.  Entry `(p, o)` of the block reads row
  `128·t + p` of the edge features, so it is entry `(128·t + p, o)` of the array function `fusedArr`: the block is the
  restriction of `fusedArr` to the point's rows.  The thirty-two blocks tile the output array (row `r` lies in the block
  of point `r / 128`), so after the region the output array holds `fusedArr` of the four arrays as the region finds them.
-/
import proofs.«144043_j30520037605944_2_alg».proof.Proof.FusedSpec
import proofs.«144043_j30520037605944_2_alg».proof.Proof.ChunkStep
import proofs.«144043_j30520037605944_2_alg».proof.Proof.FusedBody
import proofs.«144043_j30520037605944_2_alg».proof.Proof.Gen.KernelIdeal.Frame
import Idealize.ShloMosaic.Lib.Pipeline.Value
import Idealize.ShloMosaic.Lib.ValueIdx

set_option maxRecDepth 16384

noncomputable section

namespace Cert.EdgeConv.Fused

open Cert.KernelIdeal Cert.KernelIdeal.Gen
open Idealize.ShloMosaic Idealize.ShloMosaic.TcCoe Idealize.ShloMosaic.ValueIdx
open Idealize.ShloMosaic.Pipeline (Dat Cfg Window)
open Cert.EdgeConv.Body (row col step lanes rows blockOf)

/-! ## The body's block as the array function, entry by entry -/

/-- One chunk's update at an entry of the block, when row `row i` of the block of edge features is row `r` of the
    array: the accumulator plus the chunk's term of the array function at `(r, col i)`. -/
theorem step_chunk (E2 : SE2.Idx → EReal) (G : Vec Ideal S2048x512 .bf16) (S : Vec Ideal S4096x512 .bf16)
    (x0 : Vec Ideal S128x16384 .f32) (i : S128x512.Idx) (r : Fin 4096)
    (hx0 : ∀ l : Fin 16384, x0 (ix2 (row i) l) = E2 (ix2 r l)) (c : Fin 8) (acc : Vec Ideal S128x512 .f32) :
    step (lanes x0 c) G (rows S c) acc i = acc i + chunkTerm E2 G S c r (col i) := by
  unfold step chunkTerm
  refine congrArg (acc i + ·) (Finset.sum_congr rfl fun a _ => ?_)
  have hs : rows S c (ix2 a (col i)) = S (ix2 (⟨c.val * 512 + a.val, by have := c.isLt; have := a.isLt; omega⟩ : Fin 4096) (col i)) := rfl
  have he : ∀ l : Fin 2048, lanes x0 c (ix2 (row i) l)
      = E2 (ix2 r (⟨c.val * 2048 + l.val, by have := c.isLt; have := l.isLt; omega⟩ : Fin 16384)) := fun l =>
    (show lanes x0 c (ix2 (row i) l) = x0 (ix2 (row i) (⟨c.val * 2048 + l.val, by have := c.isLt; have := l.isLt; omega⟩ : Fin 16384)) from rfl).trans (hx0 _)
  rw [hs]
  refine congrArg (· * _) (Finset.sum_congr rfl fun l _ => ?_)
  rw [he l]

/-- The whole block at an entry: the array function at `(r, col i)`. -/
theorem blockOf_eq (E2 : SE2.Idx → EReal) (G : Vec Ideal S2048x512 .bf16) (S : Vec Ideal S4096x512 .bf16)
    (B : Vec Ideal S512 .f32) (x0 : Vec Ideal S128x16384 .f32) (i : S128x512.Idx) (r : Fin 4096)
    (hx0 : ∀ l : Fin 16384, x0 (ix2 (row i) l) = E2 (ix2 r l)) :
    blockOf x0 G S B i = fused E2 G S B r (col i) := by
  unfold blockOf fused
  simp only [step_chunk E2 G S x0 i r hx0]

/-! ## From blocks to the array -/

/-- The index maps, decided over the thirty-two grid points: the edge-feature rows move with the output's rows, every
    other block index is zero, and the output's row block index is the point's number. -/
theorem idx_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 1) = 0
    ∧ win1_4.index t (1 : Fin 2) = 0
    ∧ win1_4.index t (0 : Fin 2) = t.val :=
  (by decide +kernel : ∀ t : Fin grid1.N, _)

variable (V : (c : Dev nD) → (b : Ref sig .tc) → Buf (Elt Ideal) ((c : Thread nD τ).loc b))

/-- The three operands staged whole: each block is its array. -/
theorem iblk_g (c : Dev nD) (t : Fin cfg1.N) : iblk1 V c 1 t = V c main_v21 := by
  obtain ⟨e0, e1, e2, e3, e4, e5, e6, e7, e8⟩ := idx_facts t
  funext y
  show V c main_v21 (((cfg1.win 1).blk t).view.emb y) = V c main_v21 y
  refine congrArg (V c main_v21) (funext fun a => Fin.ext ?_)
  match a with
  | ⟨0, _⟩ => show win1_1.index t (0 : Fin 2) * 2048 + 1 * (y 0).val = (y 0).val; omega
  | ⟨1, _⟩ => show win1_1.index t (1 : Fin 2) * 512 + 1 * (y 1).val = (y 1).val; omega
theorem iblk_s (c : Dev nD) (t : Fin cfg1.N) : iblk1 V c 2 t = V c main_v1 := by
  obtain ⟨e0, e1, e2, e3, e4, e5, e6, e7, e8⟩ := idx_facts t
  funext y
  show V c main_v1 (((cfg1.win 2).blk t).view.emb y) = V c main_v1 y
  refine congrArg (V c main_v1) (funext fun a => Fin.ext ?_)
  match a with
  | ⟨0, _⟩ => show win1_2.index t (0 : Fin 2) * 4096 + 1 * (y 0).val = (y 0).val; omega
  | ⟨1, _⟩ => show win1_2.index t (1 : Fin 2) * 512 + 1 * (y 1).val = (y 1).val; omega
theorem iblk_b (c : Dev nD) (t : Fin cfg1.N) : iblk1 V c 3 t = V c main_arg5 := by
  obtain ⟨e0, e1, e2, e3, e4, e5, e6, e7, e8⟩ := idx_facts t
  funext y
  show V c main_arg5 (((cfg1.win 3).blk t).view.emb y) = V c main_arg5 y
  refine congrArg (V c main_arg5) (funext fun a => Fin.ext ?_)
  match a with
  | ⟨0, _⟩ => show win1_3.index t (0 : Fin 1) * 512 + 1 * (y 0).val = (y 0).val; omega

/-- WHAT POINT `t` WRITES BACK is block `t` of the array function of the four arrays as the region finds them. -/
theorem flushed_eq (c : Dev nD) (t : Fin cfg1.N) :
    (dat1 (F := Ideal) V c).flushed 4 t
      = ((cfg1.win 4).blk t).view.read (Elt Ideal)
          (Cert.EdgeConv.fusedArr (V c main_v2) (V c main_v21) (V c main_v1) (V c main_arg5)) := by
  show (cfg1.win 4).cut (grid1.coords t) ((dat1 V c).after 4 t) = _
  rw [after1_4]
  unfold outsAt1
  rw [Cert.EdgeConv.Body.body_block, iblk_g, iblk_s, iblk_b]
  obtain ⟨e0, e1, e2, e3, e4, e5, e6, e7, e8⟩ := idx_facts t
  funext j
  have hr : (((cfg1.win 4).blk t).view.emb j 0).val < 4096 := (((cfg1.win 4).blk t).view.emb j 0).isLt
  refine (blockOf_eq (V c main_v2) (V c main_v21) (V c main_v1) (V c main_arg5) (iblk1 V c 0 t) j
    ⟨(((cfg1.win 4).blk t).view.emb j 0).val, hr⟩ (fun l => ?_)).trans ?_
  · show V c main_v2 (((cfg1.win 0).blk t).view.emb (ix2 (row j) l)) = _
    refine congrArg (V c main_v2) (funext fun a => Fin.ext ?_)
    match a with
    | ⟨0, _⟩ => show win1_0.index t (0 : Fin 2) * 128 + 1 * (j 0).val = win1_4.index t (0 : Fin 2) * 128 + 1 * (j 0).val; omega
    | ⟨1, _⟩ => show win1_0.index t (1 : Fin 2) * 16384 + 1 * l.val = l.val; omega
  · show _ = fused _ _ _ _ ⟨(((cfg1.win 4).blk t).view.emb j 0).val, _⟩ ⟨(((cfg1.win 4).blk t).view.emb j 1).val, _⟩
    refine congrArg (fused _ _ _ _ _) (Fin.ext ?_)
    show (j 1).val = win1_4.index t (1 : Fin 2) * 512 + 1 * (j 1).val; omega

/-- An index of the array is in point `t`'s output block iff each coordinate is in the block's range on its axis. -/
theorem mem_blk (t : Fin cfg1.N) (i : S4096x512.Idx) :
    i ∈ ((cfg1.win 4).blk t).view.set ↔ ∀ a : Fin 2, win1_4.index t a * S128x512.size a ≤ (i a).val ∧ (i a).val < win1_4.index t a * S128x512.size a + S128x512.size a := by
  show i ∈ ((View.whole main_v22).slice (win1_4.rect t)).set ↔ _
  rw [View.set_slice_whole, Rect.mem_set_unit]
  exact Iff.rfl

/-- Row `r` of the array is in the output block of point `r / 128`, and every point writes its block back. -/
theorem cover (i : S4096x512.Idx) :
    ∃ t : Fin cfg1.N, (cfg1.win 4).flush t = true ∧ i ∈ ((cfg1.win 4).blk t).view.set := by
  have hi0 : (i 0).val < 4096 := (i 0).isLt
  have hi1 : (i 1).val < 512 := (i 1).isLt
  obtain ⟨t, ht⟩ : ∃ t : Fin cfg1.N, t.val = (i 0).val / 128 :=
    ⟨⟨(i 0).val / 128, by rw [show cfg1.N = 32 from N_1]; omega⟩, rfl⟩
  obtain ⟨e0, e1, e2, e3, e4, e5, e6, e7, e8⟩ := idx_facts t
  refine ⟨t, flush1_4 t, ?_⟩
  rw [mem_blk]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 512 ≤ (i 1).val ∧ (i 1).val < win1_4.index t (1 : Fin 2) * 512 + 512; omega

/-- The output array of the second kernel region, after the region: the array function of the four arrays the
    region reads, whatever the buffers held when it was entered. -/
theorem fused_final (c : Dev nD) :
    (dat1 (F := Ideal) V c).arrAt 4 cfg1.N
      = Cert.EdgeConv.fusedArr (V c main_v2) (V c main_v21) (V c main_v1) (V c main_arg5) :=
  (dat1 (F := Ideal) V c).arrAt_eq_of_cover 4 (Cert.EdgeConv.fusedArr (V c main_v2) (V c main_v21) (V c main_v1) (V c main_arg5))
    (fun t _ => flushed_eq V c t) cover

end Cert.EdgeConv.Fused

end
-- ==== Proof.EntryPass.lean ====
/-
  What the buffers hold when the second kernel region is entered, for the buffers that the host
  operations between the two regions leave alone.

  The contents at each boundary are a fold of the host operations over the launch memory.  A buffer that
  no operation of a stretch writes holds after the stretch what it held before; walking a buffer back
  through the stretches gives its contents at the region's entry in terms of an earlier boundary.
-/
import proofs.«144043_j30520037605944_2_alg».proof.Proof.Gen.KernelIdeal.Frame
import Idealize.ShloMosaic.PureOps.Ideal
import Idealize.ShloMosaic.Lib.ValueIdx
import Idealize.ShloMosaic.Lib.Pipeline.Value
import Idealize.ShloMosaic.Lib.StableHlo.Run
import proofs.«144043_j30520037605944_2_alg».proof.Proof.Spec

set_option maxRecDepth 16384

noncomputable section

namespace Cert.EdgeConv.Entry

open Cert.KernelIdeal Cert.KernelIdeal.Gen
open Idealize.ShloMosaic Idealize.ShloMosaic.TcCoe Idealize.SL.Sem Idealize.ShloMosaic.StableHlo
open Idealize.ShloMosaic.ValueIdx

/-- A buffer that no operation of the stretch writes keeps its contents. -/
local macro "not_written " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Stretch

variable (Wp : Valuation τ sig (Elt Ideal))

/-! ### The projected features `main_v1`: written by the first region only -/

theorem v1_ops1 : StableHlo.after (hostOps1 (F := Ideal)) Wp (Proc.devRef .tc main_v1) = Wp (Proc.devRef .tc main_v1) := not_written hostOps1
theorem v1_ops1_1 : StableHlo.after (hostOps1_1 (F := Ideal)) Wp (Proc.devRef .tc main_v1) = Wp (Proc.devRef .tc main_v1) := not_written hostOps1_1
theorem v1_ops1_2 : StableHlo.after (hostOps1_2 (F := Ideal)) Wp (Proc.devRef .tc main_v1) = Wp (Proc.devRef .tc main_v1) := not_written hostOps1_2
theorem v1_ops1_3 : StableHlo.after (hostOps1_3 (F := Ideal)) Wp (Proc.devRef .tc main_v1) = Wp (Proc.devRef .tc main_v1) := not_written hostOps1_3
theorem v1_ops1_4 : StableHlo.after (hostOps1_4 (F := Ideal)) Wp (Proc.devRef .tc main_v1) = Wp (Proc.devRef .tc main_v1) := not_written hostOps1_4
theorem v1_ops1_5 : StableHlo.after (hostOps1_5 (F := Ideal)) Wp (Proc.devRef .tc main_v1) = Wp (Proc.devRef .tc main_v1) := not_written hostOps1_5
theorem v1_ops1_6 : StableHlo.after (hostOps1_6 (F := Ideal)) Wp (Proc.devRef .tc main_v1) = Wp (Proc.devRef .tc main_v1) := not_written hostOps1_6

/-! ### The reshaped pair features `main_v2`: written by the first operation after the first region -/

theorem v2_ops1_1 : StableHlo.after (hostOps1_1 (F := Ideal)) Wp (Proc.devRef .tc main_v2) = Wp (Proc.devRef .tc main_v2) := not_written hostOps1_1
theorem v2_ops1_2 : StableHlo.after (hostOps1_2 (F := Ideal)) Wp (Proc.devRef .tc main_v2) = Wp (Proc.devRef .tc main_v2) := not_written hostOps1_2
theorem v2_ops1_3 : StableHlo.after (hostOps1_3 (F := Ideal)) Wp (Proc.devRef .tc main_v2) = Wp (Proc.devRef .tc main_v2) := not_written hostOps1_3
theorem v2_ops1_4 : StableHlo.after (hostOps1_4 (F := Ideal)) Wp (Proc.devRef .tc main_v2) = Wp (Proc.devRef .tc main_v2) := not_written hostOps1_4
theorem v2_ops1_5 : StableHlo.after (hostOps1_5 (F := Ideal)) Wp (Proc.devRef .tc main_v2) = Wp (Proc.devRef .tc main_v2) := not_written hostOps1_5
theorem v2_ops1_6 : StableHlo.after (hostOps1_6 (F := Ideal)) Wp (Proc.devRef .tc main_v2) = Wp (Proc.devRef .tc main_v2) := not_written hostOps1_6

/-- The first operation after the first region views the pair features as a 4096 × 16384 array. -/
theorem v2_ops1 : StableHlo.after (hostOps1 (F := Ideal)) Wp (Proc.devRef .tc main_v2)
    = shapeCast S4096x16384 (Wp (Proc.devRef .tc main_arg2)) shapeCasts_S16777216x4_S4096x16384 := by
  after_results <;> rfl

/-! ### The arguments of the first region: the one operation before it writes `main_v0` only -/

theorem arg0_ops0 : StableHlo.after (hostOps0 (F := Ideal)) Wp (Proc.devRef .tc main_arg0) = Wp (Proc.devRef .tc main_arg0) := not_written hostOps0
theorem arg3_ops0 : StableHlo.after (hostOps0 (F := Ideal)) Wp (Proc.devRef .tc main_arg3) = Wp (Proc.devRef .tc main_arg3) := not_written hostOps0
theorem arg2_ops0 : StableHlo.after (hostOps0 (F := Ideal)) Wp (Proc.devRef .tc main_arg2) = Wp (Proc.devRef .tc main_arg2) := not_written hostOps0

end Stretch

variable (m : (ℓ : Loc nD τ sig) → Buf (Elt Ideal) ℓ) (ρ : Dev nD → PrngReg) (c : Dev nD)

/-- The bias at the second region's entry is the launch argument. -/
theorem entry_bias : V9 m ρ c main_arg5 = m ((c.tc : Thread nD τ).loc main_arg5) :=
  ((W10_arr m ρ c 3).trans (((dat1 (V9 m ρ) c).arrAt_in 3 rfl _).trans (A_eq1 (V9 m ρ) c 3))).symm.trans
    (W10_main_arg5 m ρ c)

/-- The projected features at the second region's entry are what the first region's pipeline left. -/
theorem entry_support : V9 m ρ c main_v1 = (dat0 (V1 m ρ) c).arrAt 2 cfg0.N :=
  calc W9 m ρ c (Proc.devRef .tc main_v1)
    _ = W8 m ρ c (Proc.devRef .tc main_v1) := v1_ops1_6 _
    _ = W7 m ρ c (Proc.devRef .tc main_v1) := v1_ops1_5 _
    _ = W6 m ρ c (Proc.devRef .tc main_v1) := v1_ops1_4 _
    _ = W5 m ρ c (Proc.devRef .tc main_v1) := v1_ops1_3 _
    _ = W4 m ρ c (Proc.devRef .tc main_v1) := v1_ops1_2 _
    _ = W3 m ρ c (Proc.devRef .tc main_v1) := v1_ops1_1 _
    _ = W2 m ρ c (Proc.devRef .tc main_v1) := v1_ops1 _
    _ = (dat0 (V1 m ρ) c).arrAt 2 cfg0.N := W2_arr m ρ c 2

/-- The first region is entered with the node features and the feature weight as launched. -/
theorem entry_args0 :
    V1 m ρ c main_arg0 = m ((c.tc : Thread nD τ).loc main_arg0)
      ∧ V1 m ρ c main_arg3 = m ((c.tc : Thread nD τ).loc main_arg3) :=
  ⟨arg0_ops0 _, arg3_ops0 _⟩

/-- The reshaped pair features at the second region's entry, as an array. -/
theorem entry_edges_arr : V9 m ρ c main_v2
    = shapeCast S4096x16384 (m ((c.tc : Thread nD τ).loc main_arg2)) shapeCasts_S16777216x4_S4096x16384 :=
  calc W9 m ρ c (Proc.devRef .tc main_v2)
    _ = W8 m ρ c (Proc.devRef .tc main_v2) := v2_ops1_6 _
    _ = W7 m ρ c (Proc.devRef .tc main_v2) := v2_ops1_5 _
    _ = W6 m ρ c (Proc.devRef .tc main_v2) := v2_ops1_4 _
    _ = W5 m ρ c (Proc.devRef .tc main_v2) := v2_ops1_3 _
    _ = W4 m ρ c (Proc.devRef .tc main_v2) := v2_ops1_2 _
    _ = W3 m ρ c (Proc.devRef .tc main_v2) := v2_ops1_1 _
    _ = shapeCast S4096x16384 (W2 m ρ c (Proc.devRef .tc main_arg2)) shapeCasts_S16777216x4_S4096x16384 := v2_ops1 _
    _ = shapeCast S4096x16384 (m ((c.tc : Thread nD τ).loc main_arg2)) shapeCasts_S16777216x4_S4096x16384 := by
        rw [W2_of_ne m ρ c main_arg2 (by decide)]
        exact congrArg (fun x => shapeCast S4096x16384 x shapeCasts_S16777216x4_S4096x16384) (arg2_ops0 _)

/-- Entry `(r, k)` of the 4096 × 16384 view is feature `k % 4` of the pair `r * 4096 + k / 4`: both sit at
row-major position `r * 16384 + k`. -/
theorem entry_edges (r : Fin 4096) (k : Fin 16384) :
    (V9 m ρ c main_v2 : S4096x16384.Idx → EReal) (ix2 r k)
      = (m ((c.tc : Thread nD τ).loc main_arg2))
          (ix2 (⟨r.val * 4096 + k.val / 4, by have := r.isLt; have := k.isLt; omega⟩ : Fin 16777216)
            (⟨k.val % 4, Nat.mod_lt _ (by norm_num)⟩ : Fin 4)) := by
  have key : ∀ y : S16777216x4.Idx → EReal,
      shapeCast S4096x16384 y shapeCasts_S16777216x4_S4096x16384 (ix2 r k)
        = y (ix2 (⟨r.val * 4096 + k.val / 4, by have := r.isLt; have := k.isLt; omega⟩ : Fin 16777216)
            (⟨k.val % 4, Nat.mod_lt _ (by norm_num)⟩ : Fin 4)) := by
    intro y
    refine shapeCast_apply y shapeCasts_S16777216x4_S4096x16384 (ix2 r k) _ ?_
    rewrite [Shape.rowMajor_val_two, Shape.rowMajor_val_two]
    show (r.val * 4096 + k.val / 4) * 4 + k.val % 4 = r.val * 16384 + k.val
    omega
  rw [entry_edges_arr]
  exact key _

end Cert.EdgeConv.Entry

end
-- ==== Proof.EntryStages.lean ====
/-
  The host operations between the two kernel regions, one stretch at a time.

  Each stretch of host operations is a fold over the buffer contents.  For the buffers that the lane bookkeeping
  reads, this file states what a stretch leaves in a buffer it writes, as the operations' functions applied to
  the contents the stretch found, and that a stretch leaves alone the buffers it does not write.
-/
import proofs.«144043_j30520037605944_2_alg».proof.Proof.Gen.KernelIdeal.Frame
import Idealize.ShloMosaic.PureOps.Ideal
import Idealize.ShloMosaic.Lib.ValueIdx
import Idealize.ShloMosaic.Lib.Pipeline.Value
import Idealize.ShloMosaic.Lib.StableHlo.Run
import proofs.«144043_j30520037605944_2_alg».proof.Proof.Spec

set_option maxRecDepth 16384

noncomputable section

namespace Cert.EdgeConv.Entry

open Cert.KernelIdeal Cert.KernelIdeal.Gen
open Idealize.ShloMosaic Idealize.ShloMosaic.TcCoe Idealize.SL.Sem Idealize.ShloMosaic.StableHlo
open Idealize.ShloMosaic.ValueIdx

/-- A buffer that no operation of the stretch writes keeps its contents. -/
local macro "not_written " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### The recipes as functions of arrays -/

/-- Floor division of every lane of `x` by the scalar `d`: the truncated quotient, less one where the signs
differ and the remainder is not zero. -/
def floorDivV (x : IVec S2048 32) (d : IVec S_ 32) : IVec S2048 32 :=
  select
    (andi
      (cmpi .ne (signi x) (broadcastInDim S2048 ![] bcast_S_S2048 (signi d)))
      (cmpi .ne (Host.remsi x (broadcastInDim S2048 ![] bcast_S_S2048 d))
        (broadcastInDim S2048 ![] bcast_S_S2048 (constantI S_ 32 0#32))))
    (subi (Host.divsi x (broadcastInDim S2048 ![] bcast_S_S2048 d))
      (broadcastInDim S2048 ![] bcast_S_S2048 (constantI S_ 32 1#32)))
    (Host.divsi x (broadcastInDim S2048 ![] bcast_S_S2048 d))

/-- The divisor the remainder recipe uses: `1` in place of `0`. -/
def safeDiv (d : IVec S_ 32) : IVec S_ 32 :=
  select (cmpi .eq d (constantI S_ 32 0#32)) (constantI S_ 32 1#32) d

/-- The remainder of every lane of `x` by the scalar `d`, of the divisor's sign: the truncated remainder,
plus the divisor where it is not zero and its sign differs from the divisor's. -/
def remV (x : IVec S2048 32) (d : IVec S_ 32) : IVec S2048 32 :=
  select
    (andi
      (cmpi .ne
        (cmpi .slt (Host.remsi x (broadcastInDim S2048 ![] bcast_S_S2048 (safeDiv d)))
          (broadcastInDim S2048 ![] bcast_S_S2048 (constantI S_ 32 0#32)))
        (broadcastInDim S2048 ![] bcast_S_S2048 (cmpi .slt (safeDiv d) (constantI S_ 32 0#32))))
      (cmpi .ne (Host.remsi x (broadcastInDim S2048 ![] bcast_S_S2048 (safeDiv d)))
        (broadcastInDim S2048 ![] bcast_S_S2048 (constantI S_ 32 0#32))))
    (addi (Host.remsi x (broadcastInDim S2048 ![] bcast_S_S2048 (safeDiv d)))
      (broadcastInDim S2048 ![] bcast_S_S2048 (safeDiv d)))
    (Host.remsi x (broadcastInDim S2048 ![] bcast_S_S2048 (safeDiv d)))

section Stretch

variable (Wp : Valuation τ sig (Elt Ideal))

/-! ### What each stretch writes -/

theorem ops0_v0 : StableHlo.after (hostOps0 (F := Ideal)) Wp (Proc.devRef .tc main_v0)
    = shapeCast S4 (Wp (Proc.devRef .tc main_arg4)) shapeCasts_S4x1_S4 := by
  after_results <;> rfl

theorem ops1_v3 : StableHlo.after (hostOps1 (F := Ideal)) Wp (Proc.devRef .tc main_v3) = iotaInDim S2048 32 0 := by
  after_results <;> rfl

theorem ops1_c : StableHlo.after (hostOps1 (F := Ideal)) Wp (Proc.devRef .tc main_c) = constantI S_ 32 4#32 := by
  after_results <;> rfl

theorem ops1_1_v4 : StableHlo.after (hostOps1_1 (F := Ideal)) Wp (Proc.devRef .tc main_v4)
    = floorDivV (Wp (Proc.devRef .tc main_v3)) (Wp (Proc.devRef .tc main_c)) := by
  after_results <;> rfl

theorem ops1_2_c0 : StableHlo.after (hostOps1_2 (F := Ideal)) Wp (Proc.devRef .tc main_c_0) = constantI S_ 32 4#32 := by
  after_results <;> rfl

set_option maxHeartbeats 2000000 in
theorem ops1_3_v5 : StableHlo.after (hostOps1_3 (F := Ideal)) Wp (Proc.devRef .tc main_v5)
    = remV (Wp (Proc.devRef .tc main_v3)) (Wp (Proc.devRef .tc main_c_0)) := by
  after_results_simp <;> rfl

/-- The feature index of every lane as a gather index: the remainder, plus four where it is negative. -/
def featV (y : IVec S2048 32) : IVec S2048 32 :=
  select (cmpi .slt y (broadcastInDim S2048 ![] bcast_S_S2048 (constantI S_ 32 0#32)))
    (addi y (broadcastInDim S2048 ![] bcast_S_S2048 (constantI S_ 32 4#32))) y

theorem ops1_4_v18 : StableHlo.after (hostOps1_4 (F := Ideal)) Wp (Proc.devRef .tc main_v18)
    = cmpi .eq
        (broadcastInDim S2048x512 ![0, 1] bcast_S2048x1_S2048x512_0_1
          (broadcastInDim S2048x1 ![0] bcast_S2048_S2048x1_0 (Wp (Proc.devRef .tc main_v4))))
        (broadcastInDim S2048x512 ![0, 1] bcast_S1x512_S2048x512_0_1
          (broadcastInDim S1x512 ![1] bcast_S512_S1x512_1 (iotaInDim S512 32 0))) := by
  after_results <;> rfl

theorem ops1_4_v19 : StableHlo.after (hostOps1_4 (F := Ideal)) Wp (Proc.devRef .tc main_v19)
    = broadcastInDim S2048x1 ![0] bcast_S2048_S2048x1_0
        (Host.gather gather_S4_S2048x1_S2048_n_0_n_n_0_1_1 (Wp (Proc.devRef .tc main_v0))
          (broadcastInDim S2048x1 ![0] bcast_S2048_S2048x1_0 (featV (Wp (Proc.devRef .tc main_v5))))) := by
  after_results <;> rfl

theorem ops1_4_cst : StableHlo.after (hostOps1_4 (F := Ideal)) Wp (Proc.devRef .tc main_cst)
    = constant (F := Ideal) S_ .f32 0x00000000#32 := by
  after_results <;> rfl

theorem ops1_5_v20 : StableHlo.after (hostOps1_5 (F := Ideal)) Wp (Proc.devRef .tc main_v20)
    = select (Wp (Proc.devRef .tc main_v18))
        (broadcastInDim S2048x512 ![0, 1] bcast_S2048x1_S2048x512_0_1 (Wp (Proc.devRef .tc main_v19)))
        (broadcastInDim S2048x512 ![] bcast_S_S2048x512 (Wp (Proc.devRef .tc main_cst))) := by
  after_results <;> rfl

theorem ops1_6_v21 : StableHlo.after (hostOps1_6 (F := Ideal)) Wp (Proc.devRef .tc main_v21)
    = (truncf .bf16 (Wp (Proc.devRef .tc main_v20) : FVec Ideal S2048x512 .f32) bitsLt_bf16_f32 : FVec Ideal S2048x512 .bf16) := by
  after_results <;> rfl

/-! ### What each stretch leaves alone -/

theorem v3_ops1_1 : StableHlo.after (hostOps1_1 (F := Ideal)) Wp (Proc.devRef .tc main_v3) = Wp (Proc.devRef .tc main_v3) := not_written hostOps1_1
theorem v3_ops1_2 : StableHlo.after (hostOps1_2 (F := Ideal)) Wp (Proc.devRef .tc main_v3) = Wp (Proc.devRef .tc main_v3) := not_written hostOps1_2
theorem v4_ops1_2 : StableHlo.after (hostOps1_2 (F := Ideal)) Wp (Proc.devRef .tc main_v4) = Wp (Proc.devRef .tc main_v4) := not_written hostOps1_2
theorem v4_ops1_3 : StableHlo.after (hostOps1_3 (F := Ideal)) Wp (Proc.devRef .tc main_v4) = Wp (Proc.devRef .tc main_v4) := not_written hostOps1_3
theorem v0_ops1 : StableHlo.after (hostOps1 (F := Ideal)) Wp (Proc.devRef .tc main_v0) = Wp (Proc.devRef .tc main_v0) := not_written hostOps1
theorem v0_ops1_1 : StableHlo.after (hostOps1_1 (F := Ideal)) Wp (Proc.devRef .tc main_v0) = Wp (Proc.devRef .tc main_v0) := not_written hostOps1_1
theorem v0_ops1_2 : StableHlo.after (hostOps1_2 (F := Ideal)) Wp (Proc.devRef .tc main_v0) = Wp (Proc.devRef .tc main_v0) := not_written hostOps1_2
theorem v0_ops1_3 : StableHlo.after (hostOps1_3 (F := Ideal)) Wp (Proc.devRef .tc main_v0) = Wp (Proc.devRef .tc main_v0) := not_written hostOps1_3

end Stretch

end Cert.EdgeConv.Entry

end
-- ==== Proof.LaneWords.lean ====
/-
  Facts about 32-bit words used by the lane bookkeeping.

  For every lane `l < 2048` of a row the host computes the column `l / 4` and the feature `l % 4` from the
  lane number by the usual integer floor-division and remainder recipes: truncating division and remainder,
  followed by a correction when the signs differ and the remainder is not zero.  On the lane numbers below 2048
  and the divisor 4 the recipes give `l / 4` and `l % 4`.  These are finite checks over the 2048 lanes.  The
  comparison of a column number with a column index is the comparison of the numbers, both being small.
-/
import Idealize.ShloMosaic.PureOps.Ideal

namespace Cert.EdgeConv.Words

open Idealize.ShloMosaic

/-- The sign of a word read as a two's-complement integer: `-1`, `0` or `1`. -/
def sgn (x : BitVec 32) : BitVec 32 := if x = 0 then 0 else if x.msb then -1 else 1

/-- Floor division by recipe: the truncated quotient, less one when the signs differ and the remainder is
not zero. -/
def floorDiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32)
    (IntOp.divsi .host x d)

/-- The divisor the remainder recipe uses: `1` in place of `0`. -/
def safeDiv (d : BitVec 32) : BitVec 32 := Scalar.select (IntOp.cmpi .eq d 0#32) 1#32 d

/-- The truncated remainder by the safe divisor. -/
def remT (x d : BitVec 32) : BitVec 32 := IntOp.remsi .host x (safeDiv d)

/-- Remainder by recipe, of the divisor's sign: the truncated remainder, plus the divisor when it is not zero
and its sign differs from the divisor's. -/
def remW (x d : BitVec 32) : BitVec 32 :=
  Scalar.select
    (IntOp.andi
      (IntOp.cmpi .ne (IntOp.cmpi .slt (remT x d) 0#32) (IntOp.cmpi .slt (safeDiv d) 0#32))
      (IntOp.cmpi .ne (remT x d) 0#32))
    (IntOp.addi (remT x d) (safeDiv d))
    (remT x d)

/-- A remainder as a non-negative index: four more when it is negative. -/
def featW (y : BitVec 32) : BitVec 32 := Scalar.select (IntOp.cmpi .slt y 0#32) (IntOp.addi y 4#32) y

/-- The floor-division recipe on a lane number and 4 is the lane's column. -/
theorem floorDiv_lane : ∀ l : Fin 2048, floorDiv (BitVec.ofNat 32 l.val) 4#32 = BitVec.ofNat 32 (l.val / 4) := by
  decide +kernel

/-- The remainder recipe on a lane number and 4, made non-negative, is the lane's feature. -/
theorem feat_lane : ∀ l : Fin 2048, featW (remW (BitVec.ofNat 32 l.val) 4#32) = BitVec.ofNat 32 (l.val % 4) := by
  decide +kernel

/-- A feature number read as a signed integer and clamped into `[0, 3]` is itself. -/
theorem clamp_lane : ∀ l : Fin 2048, min (BitVec.ofNat 32 (l.val % 4)).toInt.toNat (4 - 1) = l.val % 4 := by
  decide +kernel

/-- Two numbers below `2 ^ 32` are equal as words exactly when they are equal. -/
theorem ofNat_inj {n k : Nat} (hn : n < 2 ^ 32) (hk : k < 2 ^ 32) :
    BitVec.ofNat 32 n = BitVec.ofNat 32 k ↔ n = k := by
  constructor
  · intro e
    have h := congrArg BitVec.toNat e
    rw [BitVec.toNat_ofNat, BitVec.toNat_ofNat, Nat.mod_eq_of_lt hn, Nat.mod_eq_of_lt hk] at h
    exact h
  · intro e
    rw [e]

/-- Selecting on the equality of two small numbers compared as words. -/
theorem select_eq {α : Type} {n k : Nat} (hn : n < 2 ^ 32) (hk : k < 2 ^ 32) (u v : α) :
    Scalar.select (IntOp.cmpi .eq (BitVec.ofNat 32 n) (BitVec.ofNat 32 k)) u v = if n = k then u else v := by
  unfold Scalar.select IntOp.cmpi
  by_cases h : n = k
  · subst h
    simp
  · have hne : (BitVec.ofNat 32 n == BitVec.ofNat 32 k) = false := by
      rw [beq_eq_false_iff_ne]
      exact fun e => h ((ofNat_inj hn hk).mp e)
    show (if BitVec.ofBool (BitVec.ofNat 32 n == BitVec.ofNat 32 k) = 1 then u else v) = _
    rw [hne, if_neg h, if_neg (by decide)]

end Cert.EdgeConv.Words
-- ==== Proof.EntryGroup.lean ====
/-
  The column-selection matrix at the entry of the second kernel region.

  Between the two regions the host builds a 2048 × 512 array `G` from the edge projection `q`: lane `l` of a
  row of 2048 lanes belongs to column `l / 4` and carries feature `l % 4`, and `G[l, a]` is `q[l % 4]` when
  `l / 4 = a` and `0` otherwise.  The host computes `l / 4` and `l % 4` from an iota by the integer
  floor-division and remainder recipes, gathers `q` at the feature numbers, compares the column numbers with a
  second iota and selects.  This file reads the result entry by entry.
-/
import proofs.«144043_j30520037605944_2_alg».proof.Proof.EntryStages
import proofs.«144043_j30520037605944_2_alg».proof.Proof.LaneWords
import Idealize.ShloMosaic.PureOps.Ideal.Laws

set_option maxRecDepth 16384

noncomputable section

namespace Cert.EdgeConv.Entry

open Cert.KernelIdeal Cert.KernelIdeal.Gen
open Idealize.ShloMosaic Idealize.ShloMosaic.TcCoe Idealize.SL.Sem Idealize.ShloMosaic.StableHlo
open Idealize.ShloMosaic.ValueIdx

/-! ### The recipes, lane by lane -/

/-- A scalar broadcast to the lanes reads the scalar at every lane. -/
theorem bcast0 {α : Type} (y : S_.Idx → α) (i : S2048.Idx) :
    broadcastInDim S2048 ![] bcast_S_S2048 y i = y ix0 :=
  broadcastInDim_apply _ bcast_S_S2048 y i ix0 (fun a => a.elim0)

theorem floorDivV_apply (x : IVec S2048 32) (d : IVec S_ 32) (i : S2048.Idx) :
    floorDivV x d i = Words.floorDiv (x i) (d ix0) := by
  unfold floorDivV
  simp only [select_apply, andi, cmpi, signi, subi, Host.divsi, Host.remsi, constantI]
  repeat rw [bcast0]
  first | rfl | done

theorem safeDiv_apply (d : IVec S_ 32) : safeDiv d ix0 = Words.safeDiv (d ix0) := rfl

theorem remV_apply (x : IVec S2048 32) (d : IVec S_ 32) (i : S2048.Idx) :
    remV x d i = Words.remW (x i) (d ix0) := by
  unfold remV
  simp only [select_apply, andi, cmpi, addi, Host.remsi, constantI]
  repeat rw [bcast0]
  first | rfl | done

theorem featV_apply (y : IVec S2048 32) (i : S2048.Idx) : featV y i = Words.featW (y i) := by
  unfold featV
  simp only [select_apply, cmpi, addi, constantI]
  repeat rw [bcast0]
  first | rfl | done

/-! ### The gather of the projection -/

/-- The gather reads the operand at the start index, taken as a signed number and clamped into `[0, 3]`. -/
theorem gather_apply {α : Type} (x : S4.Idx → α) (idx : IVec S2048x1 32) (l : Fin 2048) :
    Host.gather gather_S4_S2048x1_S2048_n_0_n_n_0_1_1 x idx (ix1 l)
      = x (ix1 (⟨min (idx (ix2 l (0 : Fin 1))).toInt.toNat (4 - 1), by omega⟩ : Fin 4)) := by
  unfold Host.gather
  congr 1
  funext a
  obtain rfl : a = 0 := Subsingleton.elim _ _
  refine Fin.ext ?_
  show gather_S4_S2048x1_S2048_n_0_n_n_0_1_1.start (ix1 l) idx 0
      + gather_S4_S2048x1_S2048_n_0_n_n_0_1_1.batchCoord (ix1 l) 0
      + gather_S4_S2048x1_S2048_n_0_n_n_0_1_1.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S2048x1_S2048_n_0_n_n_0_1_1.startIndexMap from List.mem_singleton.mpr rfl)]
  have hsi : gather_S4_S2048x1_S2048_n_0_n_n_0_1_1.siIdx (ix1 l)
      ⟨List.idxOf (0 : Fin 1) gather_S4_S2048x1_S2048_n_0_n_n_0_1_1.startIndexMap,
        List.idxOf_lt_length_iff.2 (List.mem_singleton.mpr rfl)⟩ = ix2 l (0 : Fin 1) := by
    funext b; refine Fin.ext ?_
    match b with
    | ⟨0, _⟩ => rfl
    | ⟨1, _⟩ => rfl
  rw [hsi]
  rfl

/-! ### The selection matrix as a function of the projection -/

/-- The selection matrix the host operations build from the projection `q`. -/
def groupArr (q : S4x1.Idx → EReal) : FVec Ideal S2048x512 .bf16 :=
  (truncf .bf16
    (select
      (cmpi .eq
        (broadcastInDim S2048x512 ![0, 1] bcast_S2048x1_S2048x512_0_1
          (broadcastInDim S2048x1 ![0] bcast_S2048_S2048x1_0
            (floorDivV (iotaInDim S2048 32 0) (constantI S_ 32 4#32))))
        (broadcastInDim S2048x512 ![0, 1] bcast_S1x512_S2048x512_0_1
          (broadcastInDim S1x512 ![1] bcast_S512_S1x512_1 (iotaInDim S512 32 0))))
      (broadcastInDim S2048x512 ![0, 1] bcast_S2048x1_S2048x512_0_1
        (broadcastInDim S2048x1 ![0] bcast_S2048_S2048x1_0
          (Host.gather gather_S4_S2048x1_S2048_n_0_n_n_0_1_1
            (shapeCast S4 q shapeCasts_S4x1_S4)
            (broadcastInDim S2048x1 ![0] bcast_S2048_S2048x1_0
              (featV (remV (iotaInDim S2048 32 0) (constantI S_ 32 4#32)))))))
      (broadcastInDim S2048x512 ![] bcast_S_S2048x512 (constant (F := Ideal) S_ .f32 0x00000000#32))
      : FVec Ideal S2048x512 .f32)
    bitsLt_bf16_f32 : FVec Ideal S2048x512 .bf16)

/-! ### Broadcasts read at an index -/

theorem bcast00 {α : Type} (y : S_.Idx → α) (j : S2048x512.Idx) :
    broadcastInDim S2048x512 ![] bcast_S_S2048x512 y j = y ix0 :=
  broadcastInDim_apply _ bcast_S_S2048x512 y j ix0 (fun a => a.elim0)

/-- A column of 2048 entries broadcast along the 512 columns. -/
theorem bcast_col {α : Type} (y : S2048x1.Idx → α) (l : Fin 2048) (a : Fin 512) :
    broadcastInDim S2048x512 ![0, 1] bcast_S2048x1_S2048x512_0_1 y (ix2 l a) = y (ix2 l (0 : Fin 1)) :=
  broadcastInDim_apply _ bcast_S2048x1_S2048x512_0_1 y (ix2 l a) (ix2 l (0 : Fin 1)) (fun b => match b with
    | ⟨0, _⟩ => by show l.val = if (2048 : Nat) = 1 then 0 else l.val; rw [if_neg (by decide)]
    | ⟨1, _⟩ => by show 0 = if (1 : Nat) = 1 then 0 else a.val; rw [if_pos rfl])

/-- A row of 512 entries broadcast along the 2048 lanes. -/
theorem bcast_row {α : Type} (y : S1x512.Idx → α) (l : Fin 2048) (a : Fin 512) :
    broadcastInDim S2048x512 ![0, 1] bcast_S1x512_S2048x512_0_1 y (ix2 l a) = y (ix2 (0 : Fin 1) a) :=
  broadcastInDim_apply _ bcast_S1x512_S2048x512_0_1 y (ix2 l a) (ix2 (0 : Fin 1) a) (fun b => match b with
    | ⟨0, _⟩ => by show 0 = if (1 : Nat) = 1 then 0 else l.val; rw [if_pos rfl]
    | ⟨1, _⟩ => by show a.val = if (512 : Nat) = 1 then 0 else a.val; rw [if_neg (by decide)])

/-- A vector of 2048 lanes as a column. -/
theorem bcast_lane {α : Type} (y : S2048.Idx → α) (l : Fin 2048) (z : Fin 1) :
    broadcastInDim S2048x1 ![0] bcast_S2048_S2048x1_0 y (ix2 l z) = y (ix1 l) :=
  broadcastInDim_apply _ bcast_S2048_S2048x1_0 y (ix2 l z) (ix1 l) (fun b => match b with
    | ⟨0, _⟩ => by show l.val = if (2048 : Nat) = 1 then 0 else l.val; rw [if_neg (by decide)])

/-- A vector of 512 entries as a row. -/
theorem bcast_iota {α : Type} (y : S512.Idx → α) (z : Fin 1) (a : Fin 512) :
    broadcastInDim S1x512 ![1] bcast_S512_S1x512_1 y (ix2 z a) = y (ix1 a) :=
  broadcastInDim_apply _ bcast_S512_S1x512_1 y (ix2 z a) (ix1 a) (fun b => match b with
    | ⟨0, _⟩ => by show a.val = if (512 : Nat) = 1 then 0 else a.val; rw [if_neg (by decide)])

/-- The flat view of the projection reads the projection. -/
theorem flat_q (q : S4x1.Idx → EReal) (f : Fin 4) :
    shapeCast S4 q shapeCasts_S4x1_S4 (ix1 f) = q (ix2 f (0 : Fin 1)) := by
  refine shapeCast_apply q shapeCasts_S4x1_S4 (ix1 f) (ix2 f (0 : Fin 1)) ?_
  rewrite [Shape.rowMajor_val_two, Shape.rowMajor_val_one]
  show f.val * 1 + 0 = f.val
  omega

theorem cmpi_at {s : Shape} {w : Nat} (p : CmpIPredicate) (x y : IVec s w) (i : s.Idx) :
    cmpi p x y i = IntOp.cmpi p (x i) (y i) := rfl

/-- The selection matrix entry by entry: lane `l` carries feature `l % 4` of column `l / 4`. -/
theorem groupArr_apply (q : S4x1.Idx → EReal) (l : Fin 2048) (a : Fin 512) :
    groupArr q (ix2 l a)
      = if l.val / 4 = a.val then q (ix2 (⟨l.val % 4, Nat.mod_lt _ (by norm_num)⟩ : Fin 4) (0 : Fin 1)) else 0 := by
  unfold groupArr
  rw [truncf_apply, select_apply, cmpi_at, bcast_col, bcast_col, bcast00, bcast_row, bcast_lane, bcast_lane,
    bcast_iota, constant_apply, Ideal.ofBits_zero_f32, floorDivV_apply, gather_apply]
  -- the column number of the lane against the column index
  have hcol : Words.floorDiv (iotaInDim S2048 32 0 (ix1 l)) (constantI S_ 32 4#32 ix0) = BitVec.ofNat 32 (l.val / 4) :=
    Words.floorDiv_lane l
  have hiota : iotaInDim S512 32 0 (ix1 a) = BitVec.ofNat 32 a.val := rfl
  rw [hcol, hiota, Words.select_eq (by have := l.isLt; omega) (by have := a.isLt; omega)]
  -- the feature number of the lane as a gather index
  have hfeat : (⟨min ((broadcastInDim S2048x1 ![0] bcast_S2048_S2048x1_0
        (featV (remV (iotaInDim S2048 32 0) (constantI S_ 32 4#32)))) (ix2 l (0 : Fin 1))).toInt.toNat (4 - 1),
        by omega⟩ : Fin 4) = ⟨l.val % 4, Nat.mod_lt _ (by norm_num)⟩ := by
    refine Fin.ext ?_
    show min ((broadcastInDim S2048x1 ![0] bcast_S2048_S2048x1_0
        (featV (remV (iotaInDim S2048 32 0) (constantI S_ 32 4#32)))) (ix2 l (0 : Fin 1))).toInt.toNat (4 - 1) = l.val % 4
    rw [bcast_lane, featV_apply, remV_apply]
    have h : Words.featW (Words.remW (iotaInDim S2048 32 0 (ix1 l)) (constantI S_ 32 4#32 ix0))
        = BitVec.ofNat 32 (l.val % 4) := Words.feat_lane l
    rw [h]
    exact Words.clamp_lane l
  rw [hfeat, flat_q]

/-! ### The arrays at the boundaries -/

variable (m : (ℓ : Loc nD τ sig) → Buf (Elt Ideal) ℓ) (ρ : Dev nD → PrngReg) (c : Dev nD)

/-- The column number of every lane, before the comparison. -/
theorem W6_v4 : W6 m ρ c (Proc.devRef .tc main_v4) = floorDivV (iotaInDim S2048 32 0) (constantI S_ 32 4#32) :=
  calc W6 m ρ c (Proc.devRef .tc main_v4)
    _ = W5 m ρ c (Proc.devRef .tc main_v4) := v4_ops1_3 _
    _ = W4 m ρ c (Proc.devRef .tc main_v4) := v4_ops1_2 _
    _ = floorDivV (W3 m ρ c (Proc.devRef .tc main_v3)) (W3 m ρ c (Proc.devRef .tc main_c)) := ops1_1_v4 _
    _ = floorDivV (iotaInDim S2048 32 0) (constantI S_ 32 4#32) := by
        rw [show W3 m ρ c (Proc.devRef .tc main_v3) = iotaInDim S2048 32 0 from ops1_v3 _,
          show W3 m ρ c (Proc.devRef .tc main_c) = constantI S_ 32 4#32 from ops1_c _]

/-- The remainder of every lane number by 4. -/
theorem W6_v5 : W6 m ρ c (Proc.devRef .tc main_v5) = remV (iotaInDim S2048 32 0) (constantI S_ 32 4#32) :=
  calc W6 m ρ c (Proc.devRef .tc main_v5)
    _ = remV (W5 m ρ c (Proc.devRef .tc main_v3)) (W5 m ρ c (Proc.devRef .tc main_c_0)) := ops1_3_v5 _
    _ = remV (iotaInDim S2048 32 0) (constantI S_ 32 4#32) := by
        rw [show W5 m ρ c (Proc.devRef .tc main_c_0) = constantI S_ 32 4#32 from ops1_2_c0 _,
          show W5 m ρ c (Proc.devRef .tc main_v3) = iotaInDim S2048 32 0 from
            (v3_ops1_2 _).trans ((v3_ops1_1 _).trans (ops1_v3 _))]

/-- The projection as a flat array of four numbers. -/
theorem W6_v0 : W6 m ρ c (Proc.devRef .tc main_v0)
    = shapeCast S4 (m ((c.tc : Thread nD τ).loc main_arg4)) shapeCasts_S4x1_S4 :=
  calc W6 m ρ c (Proc.devRef .tc main_v0)
    _ = W5 m ρ c (Proc.devRef .tc main_v0) := v0_ops1_3 _
    _ = W4 m ρ c (Proc.devRef .tc main_v0) := v0_ops1_2 _
    _ = W3 m ρ c (Proc.devRef .tc main_v0) := v0_ops1_1 _
    _ = W2 m ρ c (Proc.devRef .tc main_v0) := v0_ops1 _
    _ = W1 m ρ c (Proc.devRef .tc main_v0) := W2_of_ne m ρ c main_v0 (by decide)
    _ = shapeCast S4 (m ((c.tc : Thread nD τ).loc main_arg4)) shapeCasts_S4x1_S4 := ops0_v0 _

/-- The selection matrix as an array. -/
theorem entry_group_arr : V9 m ρ c main_v21 = groupArr (m ((c.tc : Thread nD τ).loc main_arg4)) := by
  unfold groupArr
  show StableHlo.after hostOps1_6 (W8 m ρ c) (Proc.devRef .tc main_v21) = _
  rw [ops1_6_v21]
  rw [show W8 m ρ c (Proc.devRef .tc main_v20) = _ from ops1_5_v20 (W7 m ρ c)]
  rw [show W7 m ρ c (Proc.devRef .tc main_v18) = _ from ops1_4_v18 (W6 m ρ c),
    show W7 m ρ c (Proc.devRef .tc main_v19) = _ from ops1_4_v19 (W6 m ρ c),
    show W7 m ρ c (Proc.devRef .tc main_cst) = _ from ops1_4_cst (W6 m ρ c)]
  rw [W6_v4, W6_v5, W6_v0]

/-- The selection matrix at the second region's entry, entry by entry. -/
theorem entry_group (l : Fin 2048) (a : Fin 512) :
    (V9 m ρ c main_v21 : S2048x512.Idx → EReal) (ix2 l a)
      = if l.val / 4 = a.val then
          (m ((c.tc : Thread nD τ).loc main_arg4) : S4x1.Idx → EReal)
            (ix2 (⟨l.val % 4, Nat.mod_lt _ (by norm_num)⟩ : Fin 4) (0 : Fin 1))
        else (0 : EReal) := by
  rw [entry_group_arr]
  exact groupArr_apply _ l a

end Cert.EdgeConv.Entry

end
-- ==== Proof.ChunkLaw.lean ====
/-
  Two regrouping laws for finite sums.

  * A sum over 4096 indices is the sum of its eight consecutive blocks of 512 indices, added block
    after block starting from zero.
  * In a row of 2048 lanes, lane `l` belongs to column `l / 4` and carries feature `l % 4`.  Summing
    a row against a weight that is zero outside column `a` leaves the four lanes of that column.

  Only commutativity and associativity of `+`, `0 + x = x` and `x * 0 = 0` are used; no distributivity
  and no cancellation, so everything holds in the extended reals.
-/
import Idealize.ShloMosaic.PureOps.Ideal
import proofs.«144043_j30520037605944_2_alg».proof.Proof.Spec

noncomputable section

namespace Cert.EdgeConv

/-- The index `512 * c + a` of block `c` is the image of `(c, a)` under the row-major pairing. -/
private theorem block_ix (c : Fin 8) (a : Fin 512) (h : c.val * 512 + a.val < 4096) :
    (finProdFinEquiv (c, a) : Fin (8 * 512)) = (⟨c.val * 512 + a.val, h⟩ : Fin 4096) := by
  apply Fin.ext
  show a.val + 512 * c.val = c.val * 512 + a.val
  omega

/-- A sum over `Fin 4096` as a sum over blocks and positions inside a block. -/
theorem sum_blocks {M : Type*} [AddCommMonoid M] (f : Fin 4096 → M) :
    (∑ j : Fin 4096, f j)
      = ∑ c : Fin 8, ∑ a : Fin 512,
          f ⟨c.val * 512 + a.val, by have := c.isLt; have := a.isLt; omega⟩ := by
  have h : (∑ j : Fin 4096, f j) = ∑ p : Fin 8 × Fin 512, f (finProdFinEquiv p) :=
    (Equiv.sum_comp (finProdFinEquiv : Fin 8 × Fin 512 ≃ Fin 4096) f).symm
  rw [h, Fintype.sum_prod_type]
  refine Finset.sum_congr rfl fun c _ => Finset.sum_congr rfl fun a _ => ?_
  exact congrArg f (block_ix c a _)

/-- A sum over 4096 indices, block after block. -/
theorem sum_chunks8 {M : Type*} [AddCommMonoid M] (f : Fin 4096 → M) :
    (∑ j : Fin 4096, f j)
      = ((((((((0
          + ∑ a : Fin 512, f ⟨0 * 512 + a.val, by omega⟩)
          + ∑ a : Fin 512, f ⟨1 * 512 + a.val, by omega⟩)
          + ∑ a : Fin 512, f ⟨2 * 512 + a.val, by omega⟩)
          + ∑ a : Fin 512, f ⟨3 * 512 + a.val, by omega⟩)
          + ∑ a : Fin 512, f ⟨4 * 512 + a.val, by omega⟩)
          + ∑ a : Fin 512, f ⟨5 * 512 + a.val, by omega⟩)
          + ∑ a : Fin 512, f ⟨6 * 512 + a.val, by omega⟩)
          + ∑ a : Fin 512, f ⟨7 * 512 + a.val, by omega⟩) := by
  rw [sum_blocks f, Fin.sum_univ_eight, zero_add]
  rfl

/-- The same law with every block offset written as one numeral. -/
theorem sum_chunks8_off {M : Type*} [AddCommMonoid M] (f : Fin 4096 → M) :
    (∑ j : Fin 4096, f j)
      = ((((((((0
          + ∑ a : Fin 512, f ⟨0 + a.val, by omega⟩)
          + ∑ a : Fin 512, f ⟨512 + a.val, by omega⟩)
          + ∑ a : Fin 512, f ⟨1024 + a.val, by omega⟩)
          + ∑ a : Fin 512, f ⟨1536 + a.val, by omega⟩)
          + ∑ a : Fin 512, f ⟨2048 + a.val, by omega⟩)
          + ∑ a : Fin 512, f ⟨2560 + a.val, by omega⟩)
          + ∑ a : Fin 512, f ⟨3072 + a.val, by omega⟩)
          + ∑ a : Fin 512, f ⟨3584 + a.val, by omega⟩) :=
  sum_chunks8 f

/-- Lane `4 * x + y` of a row is the image of `(x, y)` under the row-major pairing. -/
private theorem lane_ix (x : Fin 512) (y : Fin 4) (h : 4 * x.val + y.val < 2048) :
    (finProdFinEquiv (x, y) : Fin (512 * 4)) = (⟨4 * x.val + y.val, h⟩ : Fin 2048) := by
  apply Fin.ext
  show y.val + 4 * x.val = 4 * x.val + y.val
  omega

/-- A sum over the 2048 lanes of a row as a sum over columns and features. -/
theorem sum_lanes {M : Type*} [AddCommMonoid M] (g : Fin 2048 → M) :
    (∑ l : Fin 2048, g l)
      = ∑ x : Fin 512, ∑ y : Fin 4,
          g ⟨4 * x.val + y.val, by have := x.isLt; have := y.isLt; omega⟩ := by
  have h : (∑ l : Fin 2048, g l) = ∑ p : Fin 512 × Fin 4, g (finProdFinEquiv p) :=
    (Equiv.sum_comp (finProdFinEquiv : Fin 512 × Fin 4 ≃ Fin 2048) g).symm
  rw [h, Fintype.sum_prod_type]
  refine Finset.sum_congr rfl fun x _ => Finset.sum_congr rfl fun y _ => ?_
  exact congrArg g (lane_ix x y _)

/-- Summing a row of lanes against a weight that lives on column `a` only: lane `l` lies in column
`l / 4` and carries feature `l % 4`; every lane of another column contributes `e l * 0 = 0`. -/
theorem onehot_sum (e : Fin 2048 → EReal) (qv : Fin 4 → EReal) (a : Fin 512) :
    (∑ l : Fin 2048,
        e l * (if l.val / 4 = a.val then qv ⟨l.val % 4, Nat.mod_lt _ (by norm_num)⟩ else 0))
      = ∑ f : Fin 4, e ⟨4 * a.val + f.val, by have := a.isLt; have := f.isLt; omega⟩ * qv f := by
  rw [sum_lanes, Finset.sum_eq_single a]
  · refine Finset.sum_congr rfl fun y _ => ?_
    have hy := y.isLt
    have h1 : (4 * a.val + y.val) / 4 = a.val := by omega
    have h2 : (4 * a.val + y.val) % 4 = y.val := by omega
    simp only [h1, if_true]
    congr 2
    exact Fin.ext h2
  · intro x _ hx
    refine Finset.sum_eq_zero fun y _ => ?_
    have hy := y.isLt
    have hne : ¬ (4 * x.val + y.val) / 4 = a.val := by
      intro h
      apply hx
      apply Fin.ext
      omega
    simp only [hne, if_false, mul_zero]
  · intro h
    exact absurd (Finset.mem_univ a) h

end Cert.EdgeConv

end
-- ==== Proof.Bridge.lean ====
/-
  The second kernel's function of its operands IS the specification, once its operands are what the program
  hands it: the edge features regrouped into rows of 16384 lanes (lane k of row r holds feature k % 4 of the pair
  (r, k / 4)), the grouping matrix (entry (l, a) is the projection weight of feature l % 4 when lane l lies in column
  a = l / 4, and zero otherwise) and the projected features.

  Chunk c of the kernel's sum, at column a of the chunk, contracts 2048 lanes against the grouping matrix: only the
  four lanes of column a survive, and they are the four features of the pair (r, 512·c + a) against the projection —
  the dense edge weight.  The eight chunks in order are the sum over all 4096 columns.
-/
import proofs.«144043_j30520037605944_2_alg».proof.Proof.Spec
import proofs.«144043_j30520037605944_2_alg».proof.Proof.FusedSpec
import proofs.«144043_j30520037605944_2_alg».proof.Proof.ChunkLaw

noncomputable section

namespace Cert.EdgeConv

open Idealize.ShloMosaic Idealize.ShloMosaic.ValueIdx

variable (X : SX.Idx → EReal) (E : SE.Idx → EReal) (W : SW.Idx → EReal) (q : SQ.Idx → EReal) (b : SB.Idx → EReal)
variable (e2 : SE2.Idx → EReal) (g : SG.Idx → EReal)

/-- One column of one chunk: the lane contraction against the grouping matrix is the dense edge weight. -/
theorem lanes_edge
    (he : ∀ (r : Fin 4096) (k : Fin 16384), e2 (ix2 r k)
      = E (ix2 (⟨r.val * 4096 + k.val / 4, by have := r.isLt; have := k.isLt; omega⟩ : Fin 16777216) (⟨k.val % 4, Nat.mod_lt _ (by norm_num)⟩ : Fin 4)))
    (hg : ∀ (l : Fin 2048) (a : Fin 512), g (ix2 l a)
      = if l.val / 4 = a.val then q (ix2 (⟨l.val % 4, Nat.mod_lt _ (by norm_num)⟩ : Fin 4) (0 : Fin 1)) else 0)
    (c : Fin 8) (r : Fin 4096) (a : Fin 512) :
    (∑ l : Fin 2048, e2 (ix2 r (⟨c.val * 2048 + l.val, by have := c.isLt; have := l.isLt; omega⟩ : Fin 16384)) * g (ix2 l a))
      = edge E q r ⟨c.val * 512 + a.val, by have := c.isLt; have := a.isLt; omega⟩ := by
  have hc := c.isLt
  have ha := a.isLt
  simp only [hg]
  rw [onehot_sum (fun l => e2 (ix2 r (⟨c.val * 2048 + l.val, by have := l.isLt; omega⟩ : Fin 16384)))
    (fun f => q (ix2 f (0 : Fin 1))) a]
  unfold edge
  refine Finset.sum_congr rfl fun f _ => ?_
  have hf := f.isLt
  rw [he]
  congr 2
  refine congrArg₂ ix2 (Fin.ext ?_) (Fin.ext ?_)
  · show r.val * 4096 + (c.val * 2048 + (4 * a.val + f.val)) / 4 = r.val * 4096 + (c.val * 512 + a.val)
    omega
  · show (c.val * 2048 + (4 * a.val + f.val)) % 4 = f.val
    omega

/-- One chunk of the kernel's sum is the specification's sum over that chunk's 512 columns. -/
theorem chunkTerm_eq
    (he : ∀ (r : Fin 4096) (k : Fin 16384), e2 (ix2 r k)
      = E (ix2 (⟨r.val * 4096 + k.val / 4, by have := r.isLt; have := k.isLt; omega⟩ : Fin 16777216) (⟨k.val % 4, Nat.mod_lt _ (by norm_num)⟩ : Fin 4)))
    (hg : ∀ (l : Fin 2048) (a : Fin 512), g (ix2 l a)
      = if l.val / 4 = a.val then q (ix2 (⟨l.val % 4, Nat.mod_lt _ (by norm_num)⟩ : Fin 4) (0 : Fin 1)) else 0)
    (c : Fin 8) (r : Fin 4096) (o : Fin 512) :
    chunkTerm e2 g (suppArr X W) c r o
      = ∑ a : Fin 512, edge E q r ⟨c.val * 512 + a.val, by have := c.isLt; have := a.isLt; omega⟩
          * supp X W ⟨c.val * 512 + a.val, by have := c.isLt; have := a.isLt; omega⟩ o := by
  unfold chunkTerm
  refine Finset.sum_congr rfl fun a _ => ?_
  rw [lanes_edge E q e2 g he hg c r a]
  rfl

/-- THE BRIDGE: the second kernel's result array, at the operands the program hands it, is the specification. -/
theorem fused_eq_result
    (he : ∀ (r : Fin 4096) (k : Fin 16384), e2 (ix2 r k)
      = E (ix2 (⟨r.val * 4096 + k.val / 4, by have := r.isLt; have := k.isLt; omega⟩ : Fin 16777216) (⟨k.val % 4, Nat.mod_lt _ (by norm_num)⟩ : Fin 4)))
    (hg : ∀ (l : Fin 2048) (a : Fin 512), g (ix2 l a)
      = if l.val / 4 = a.val then q (ix2 (⟨l.val % 4, Nat.mod_lt _ (by norm_num)⟩ : Fin 4) (0 : Fin 1)) else 0) :
    fusedArr e2 g (suppArr X W) b = result X E W q b := by
  funext i
  unfold fusedArr result fused out
  refine congrArg₂ (· + ·) ?_ rfl
  rw [sum_chunks8 (fun j => edge E q (i 0) j * supp X W j (i 1))]
  simp only [chunkTerm_eq X E W q e2 g he hg]
  rfl

end Cert.EdgeConv

end
-- ==== Proof.KernelValue.lean ====
/-
  The idealized kernel program's result array is the specification of its argument arrays.

  The result buffer is the second region's output: the fold of what its 32 points write back, which is the second
  kernel's function of the arrays the region is entered with.  Those are: the edge features regrouped by a host
  reshape, the grouping matrix the host builds from the projection weights, the first region's output — the
  projected features — and the bias.  The bridge then identifies that function with the specification.
-/
import proofs.«144043_j30520037605944_2_alg».proof.Proof.KernelRun
import proofs.«144043_j30520037605944_2_alg».proof.Proof.SupportValue
import proofs.«144043_j30520037605944_2_alg».proof.Proof.FusedValue
import proofs.«144043_j30520037605944_2_alg».proof.Proof.EntryPass
import proofs.«144043_j30520037605944_2_alg».proof.Proof.EntryGroup
import proofs.«144043_j30520037605944_2_alg».proof.Proof.Bridge

noncomputable section

namespace Cert.EdgeConv.Kernel

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The last boundary's contents at the result buffer: the specification of the launch memory's arguments. -/
theorem result_eq (c : Dev nD) :
    W10 (F := Ideal) m ρ c (Proc.devRef .tc main_v22)
      = Cert.EdgeConv.result (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  have h4 : W10 (F := Ideal) m ρ c (Proc.devRef .tc main_v22) = (dat1 (V9 m ρ) c).arrAt 4 cfg1.N := W10_arr m ρ c 4
  rw [h4, Cert.EdgeConv.Fused.fused_final (V9 m ρ) c, Cert.EdgeConv.Entry.entry_support m ρ c,
    Cert.EdgeConv.Support.support_final (V1 m ρ) c, (Cert.EdgeConv.Entry.entry_args0 m ρ c).1,
    (Cert.EdgeConv.Entry.entry_args0 m ρ c).2, Cert.EdgeConv.Entry.entry_bias m ρ c]
  exact Cert.EdgeConv.fused_eq_result _ _ _ _ _ _ _ (Cert.EdgeConv.Entry.entry_edges m ρ c) (Cert.EdgeConv.Entry.entry_group m ρ c)

end Cert.EdgeConv.Kernel

end
-- ==== Proof.RefValue.lean ====
/-
  The reference program computes the specification.

  Reading the reference one operation at a time: it multiplies the node features by the feature
  weight (the projected features), multiplies the per-pair features by the projection (one scalar per
  ordered pair, stored row-major and then viewed as a 4096 × 4096 array), multiplies that array by
  the projected features, and adds the bias broadcast along the rows.  Entry by entry this is the
  specification's `out`: the index of each operand read is the specification's index, and the sums
  are the same sums in the same order.
-/
import proofs.«144043_j30520037605944_2_alg».proof.Proof.Gen.ReferenceIdeal.Read
import proofs.«144043_j30520037605944_2_alg».proof.Proof.Spec

noncomputable section

namespace Cert.EdgeConv.Ref

open Idealize.ShloMosaic Idealize.ShloMosaic.ValueIdx Cert.ReferenceIdeal Cert.ReferenceIdeal.Read

/-! ### The operand indices, at literal coordinates -/

theorem lidx_v0 (j : Fin 4096) (o k : Fin 512) : lidx_main_v0 (ix2 j o) k = ix2 j k :=
  funext fun a => Fin.ext (by match a with | ⟨0, _⟩ => rfl | ⟨1, _⟩ => rfl)

theorem ridx_v0 (j : Fin 4096) (o k : Fin 512) : ridx_main_v0 (ix2 j o) k = ix2 k o :=
  funext fun a => Fin.ext (by match a with | ⟨0, _⟩ => rfl | ⟨1, _⟩ => rfl)

theorem lidx_v1 (p : Fin 16777216) (z : Fin 1) (f : Fin 4) : lidx_main_v1 (ix2 p z) f = ix2 p f :=
  funext fun a => Fin.ext (by match a with | ⟨0, _⟩ => rfl | ⟨1, _⟩ => rfl)

theorem ridx_v1 (p : Fin 16777216) (f : Fin 4) : ridx_main_v1 (ix2 p (0 : Fin 1)) f = ix2 f (0 : Fin 1) :=
  funext fun a => Fin.ext (by match a with | ⟨0, _⟩ => rfl | ⟨1, _⟩ => rfl)

/-- Entry `(r, j)` of the 4096 × 4096 view is entry `r * 4096 + j` of the column of pair weights. -/
theorem idx_v2 (r j : Fin 4096) : idx_main_v2 (ix2 r j) = ix2 (pairIx r j) (0 : Fin 1) :=
  funext fun a => Fin.ext (by
    match a with
    | ⟨0, _⟩ => exact Nat.div_one _
    | ⟨1, _⟩ => rfl)

theorem lidx_v3 (r : Fin 4096) (o : Fin 512) (k : Fin 4096) : lidx_main_v3 (ix2 r o) k = ix2 r k :=
  funext fun a => Fin.ext (by match a with | ⟨0, _⟩ => rfl | ⟨1, _⟩ => rfl)

theorem ridx_v3 (r : Fin 4096) (o : Fin 512) (k : Fin 4096) : ridx_main_v3 (ix2 r o) k = ix2 k o :=
  funext fun a => Fin.ext (by match a with | ⟨0, _⟩ => rfl | ⟨1, _⟩ => rfl)

theorem idx_v45 (r : Fin 4096) (o : Fin 512) : idx_main_v4 (idx_main_v5 (ix2 r o)) = ix1 o :=
  funext fun a => Fin.ext (by match a with | ⟨0, _⟩ => rfl)

/-! ### The operations, entry by entry -/

variable (x0 : (⟨Cert.ReferenceIdeal.S4096x512, .f32⟩ : BufTy).Contents (Elt Ideal))
  (x2 : (⟨Cert.ReferenceIdeal.S16777216x4, .f32⟩ : BufTy).Contents (Elt Ideal))
  (x3 : (⟨Cert.ReferenceIdeal.S512x512, .f32⟩ : BufTy).Contents (Elt Ideal))
  (x4 : (⟨Cert.ReferenceIdeal.S4x1, .f32⟩ : BufTy).Contents (Elt Ideal))
  (x5 : (⟨Cert.ReferenceIdeal.S512, .f32⟩ : BufTy).Contents (Elt Ideal))

/-- The first product is the projected features. -/
theorem v0_at (j : Fin 4096) (o : Fin 512) :
    val_main_v0 (F := Ideal) x0 x3 (ix2 j o) = supp x0 x3 j o := by
  rw [val_main_v0_apply]
  unfold supp
  refine Finset.sum_congr rfl fun k _ => ?_
  rw [lidx_v0, ridx_v0]

/-- The second product is one scalar per ordered pair. -/
theorem v1_at (p : Fin 16777216) :
    val_main_v1 (F := Ideal) x2 x4 (ix2 p (0 : Fin 1))
      = ∑ f : Fin 4, x2 (ix2 p f) * x4 (ix2 f (0 : Fin 1)) := by
  rw [val_main_v1_apply]
  refine Finset.sum_congr rfl fun f _ => ?_
  rw [lidx_v1, ridx_v1]

/-- Viewed as a square array, the pair scalars are the edge weights. -/
theorem v2_at (r j : Fin 4096) :
    val_main_v2 (F := Ideal) x2 x4 (ix2 r j) = edge x2 x4 r j := by
  rw [val_main_v2_apply, idx_v2, v1_at]
  rfl

/-- The twice-broadcast bias. -/
theorem v5_at (r : Fin 4096) (o : Fin 512) :
    val_main_v5 (F := Ideal) x5 (ix2 r o) = x5 (ix1 o) := by
  rw [val_main_v5_apply, val_main_v4_apply, idx_v45]

/-- The edge weights against the projected features. -/
theorem v3_at (r : Fin 4096) (o : Fin 512) :
    val_main_v3 (F := Ideal) x0 x2 x3 x4 (ix2 r o)
      = ∑ j : Fin 4096, edge x2 x4 r j * supp x0 x3 j o := by
  rw [val_main_v3_apply]
  refine Finset.sum_congr rfl fun k _ => ?_
  rw [lidx_v3, ridx_v3, v2_at, v0_at]

/-- The reference's result is the specification. -/
theorem ref_result :
    val_main_v6 (F := Ideal) x0 x2 x3 x4 x5 = Cert.EdgeConv.result x0 x2 x3 x4 x5 := by
  funext i
  obtain ⟨r, o, rfl⟩ : ∃ (r : Fin 4096) (o : Fin 512), i = ix2 r o := ⟨i 0, i 1, eq_ix2 i⟩
  rw [val_main_v6_apply, v3_at, v5_at]
  rfl

end Cert.EdgeConv.Ref

end
-- ==== Proof.lean ====
/-
  The certificate of an edge-weighted graph convolution: out = A · (X · W) + b, where the dense weight A[r, j] of the
  pair (r, j) is the projection of its four edge features, A[r, j] = ∑ f, E[r·4096 + j, f] · q[f].

  The kernel program never forms A.  A first kernel computes the projected features X · W.  A second kernel, row tile
  by row tile, contracts eight chunks of 2048 edge-feature lanes against a fixed [2048, 512] grouping matrix (entry
  (l, a) is q[l % 4] when l / 4 = a and zero otherwise), which yields 512 columns of A at a time, and multiplies them
  at once into the matching 512 rows of the projected features, accumulating.  Over the extended reals the zero
  entries of the grouping matrix contribute exact zeros, the four surviving lanes of a column are the four features
  of its pair, and the eight chunks in order are the sum over all 4096 columns: the reference's two matrix products.
  No law beyond commutativity and associativity of + and ·, 0 + x = x and x · 0 = 0 is used, so the finiteness of the
  inputs is never needed.

  Frames: both kernel programs run by their generated frame theorems; the reference's frame is its generated run with
  the result dropped.  The idealization rewrote nothing.
-/
import proofs.«144043_j30520037605944_2_alg».proof.Defs
import proofs.«144043_j30520037605944_2_alg».proof.Proof.Gen.Kernel
import proofs.«144043_j30520037605944_2_alg».proof.Proof.Gen.Kernel.Skeleton
import proofs.«144043_j30520037605944_2_alg».proof.Proof.Gen.Kernel.Launch
import proofs.«144043_j30520037605944_2_alg».proof.Proof.Gen.Kernel.Points
import proofs.«144043_j30520037605944_2_alg».proof.Proof.Gen.Kernel.Frame
import proofs.«144043_j30520037605944_2_alg».proof.Proof.Gen.KernelIdeal
import proofs.«144043_j30520037605944_2_alg».proof.Proof.Gen.KernelIdeal.Skeleton
import proofs.«144043_j30520037605944_2_alg».proof.Proof.Gen.KernelIdeal.Launch
import proofs.«144043_j30520037605944_2_alg».proof.Proof.Gen.KernelIdeal.Points
import proofs.«144043_j30520037605944_2_alg».proof.Proof.Gen.KernelIdeal.Frame
import proofs.«144043_j30520037605944_2_alg».proof.Proof.Gen.ReferenceIdeal
import proofs.«144043_j30520037605944_2_alg».proof.Proof.Gen.ReferenceIdeal.Run
import proofs.«144043_j30520037605944_2_alg».proof.Proof.Gen.ReferenceIdeal.Read
import proofs.«144043_j30520037605944_2_alg».proof.Proof.Gen.Pre_finite_inputs
import proofs.«144043_j30520037605944_2_alg».proof.Proof.KernelValue
import proofs.«144043_j30520037605944_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the (agreeing) argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.EdgeConv.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.EdgeConv.Kernel.result_eq m ρ c), (h c).2⟩)
      (Cert.EdgeConv.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.EdgeConv.Ref.ref_result, (hagree c).1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
